-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2 : Shape := ⟨2, ![4194304, 2]⟩
abbrev S_ : Shape := ⟨0, ![]⟩

class Facts : Prop where
  bcast_S_S4194304x2 : S_.BroadcastsInDim S4194304x2 (![] : Fin 0 → Fin S4194304x2.rank)
  reducesTo_S4194304x2_S_d0_1 : S4194304x2.ReducesTo [0, 1] S_
  h_S_ : 0 < S_.numel

variable [Facts]

def fn {F : FTy → Type} [FloatOps F] (main_arg0 : FVec F S4194304x2 .f32) : IVec S_ 1 :=
  let main_v0 : FVec F S4194304x2 .f32 := Host.absf main_arg0
  let main_cst : FVec F S_ .f32 := constant S_ .f32 0x7F800000#32
  let main_v1 : FVec F S4194304x2 .f32 := broadcastInDim S4194304x2 ![] bcast_S_S4194304x2 main_cst
  let main_v2 : IVec S4194304x2 1 := cmpf .olt main_v0 main_v1
  let main_c : IVec S_ 1 := constantI S_ 1 1#1
  let main_v3 : IVec S_ 1 := (fun x v => Host.reduce IntOp.andi x v reducesTo_S4194304x2_S_d0_1 h_S_) main_v2 main_c
  main_v3
-- ==== Kernel.lean ====
abbrev S4194304x2 : Shape := ⟨2, ![4194304, 2]⟩
abbrev S4194304x1 : Shape := ⟨2, ![4194304, 1]⟩
abbrev S4194304 : Shape := ⟨1, ![4194304]⟩
abbrev S2048x2048 : Shape := ⟨2, ![2048, 2048]⟩
abbrev S256x2048 : Shape := ⟨2, ![256, 2048]⟩

abbrev nBuf : Space → Nat
  | .hbm => 14
  | .vmem => 8
  | .smem => 0
  | _ => 0

abbrev bufTy : (tb : Table) → Fin (tcTables nBuf tb) → BufTy
  | .hbm, ⟨0, _⟩ => ⟨S4194304x2, .f32⟩
  | .hbm, ⟨1, _⟩ => ⟨S4194304x1, .f32⟩
  | .hbm, ⟨2, _⟩ => ⟨S4194304, .f32⟩
  | .hbm, ⟨3, _⟩ => ⟨S2048x2048, .f32⟩
  | .hbm, ⟨4, _⟩ => ⟨S4194304x1, .f32⟩
  | .hbm, ⟨5, _⟩ => ⟨S4194304, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S4194304, .f32⟩
  | .hbm, ⟨10, _⟩ => ⟨S4194304, .f32⟩
  | .hbm, ⟨11, _⟩ => ⟨S4194304x1, .f32⟩
  | .hbm, ⟨12, _⟩ => ⟨S4194304x1, .f32⟩
  | .hbm, ⟨13, _⟩ => ⟨S4194304x2, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6_0 : Ref sig .tc := ⟨.hbm, 7, rfl⟩
abbrev main_v6_1 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4194304x2_S4194304x1_0_0 : S4194304x2.Slices ![0, 0] S4194304x1
  shapeCasts_S4194304x1_S4194304 : S4194304x1.ShapeCasts S4194304
  shapeCasts_S4194304_S2048x2048 : S4194304.ShapeCasts S2048x2048
  slices_S4194304x2_S4194304x1_0_1 : S4194304x2.Slices ![0, 1] S4194304x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S2048x2048_S4194304 : S2048x2048.ShapeCasts S4194304
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .f32 = 32 ∨ (Rect.block (s := S2048x2048) S256x2048.size (cc0_transform_3 i) (hinb0_3 i)).WholeWords (EltTy.packing .f32)

variable [Facts₀]

abbrev win0_0 : Pipeline.Window sig grid0 :=
  Pipeline.Window.ofSpec (Memref.whole main_v2) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S256x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x2 : Shape := ⟨2, ![4194304, 2]⟩
abbrev S3x2 : Shape := ⟨2, ![3, 2]⟩
abbrev S6x2 : Shape := ⟨2, ![6, 2]⟩
abbrev S2x3 : Shape := ⟨2, ![2, 3]⟩
abbrev S4194304x3 : Shape := ⟨2, ![4194304, 3]⟩
abbrev S_ : Shape := ⟨0, ![]⟩
abbrev S4194304 : Shape := ⟨1, ![4194304]⟩
abbrev S2x6 : Shape := ⟨2, ![2, 6]⟩
abbrev S4194304x6 : Shape := ⟨2, ![4194304, 6]⟩
abbrev S4194304x1 : Shape := ⟨2, ![4194304, 1]⟩

abbrev nBuf : Space → Nat
  | .hbm => 40
  | .vmem => 0
  | .smem => 0
  | _ => 0

abbrev bufTy : (tb : Table) → Fin (tcTables nBuf tb) → BufTy
  | .hbm, ⟨0, _⟩ => ⟨S4194304x2, .f32⟩
  | .hbm, ⟨1, _⟩ => ⟨S3x2, .f32⟩
  | .hbm, ⟨2, _⟩ => ⟨S6x2, .f32⟩
  | .hbm, ⟨3, _⟩ => ⟨S2x3, .f32⟩
  | .hbm, ⟨4, _⟩ => ⟨S4194304x3, .f32⟩
  | .hbm, ⟨5, _⟩ => ⟨S4194304x3, .f32⟩
  | .hbm, ⟨6, _⟩ => ⟨S_, .f32⟩
  | .hbm, ⟨7, _⟩ => ⟨S4194304, .f32⟩
  | .hbm, ⟨8, _⟩ => ⟨S_, .f32⟩
  | .hbm, ⟨9, _⟩ => ⟨S4194304, .f32⟩
  | .hbm, ⟨10, _⟩ => ⟨S4194304, .f32⟩
  | .hbm, ⟨11, _⟩ => ⟨S4194304x3, .f32⟩
  | .hbm, ⟨12, _⟩ => ⟨S_, .f32⟩
  | .hbm, ⟨13, _⟩ => ⟨S4194304, .f32⟩
  | .hbm, ⟨14, _⟩ => ⟨S_, .f32⟩
  | .hbm, ⟨15, _⟩ => ⟨S4194304, .f32⟩
  | .hbm, ⟨16, _⟩ => ⟨S4194304, .f32⟩
  | .hbm, ⟨17, _⟩ => ⟨S2x6, .f32⟩
  | .hbm, ⟨18, _⟩ => ⟨S4194304x6, .f32⟩
  | .hbm, ⟨19, _⟩ => ⟨S4194304x6, .f32⟩
  | .hbm, ⟨20, _⟩ => ⟨S_, .f32⟩
  | .hbm, ⟨21, _⟩ => ⟨S4194304, .f32⟩
  | .hbm, ⟨22, _⟩ => ⟨S_, .f32⟩
  | .hbm, ⟨23, _⟩ => ⟨S4194304, .f32⟩
  | .hbm, ⟨24, _⟩ => ⟨S4194304, .f32⟩
  | .hbm, ⟨25, _⟩ => ⟨S4194304, .f32⟩
  | .hbm, ⟨26, _⟩ => ⟨S_, .f32⟩
  | .hbm, ⟨27, _⟩ => ⟨S4194304, .f32⟩
  | .hbm, ⟨28, _⟩ => ⟨S4194304, .f32⟩
  | .hbm, ⟨29, _⟩ => ⟨S4194304, .f32⟩
  | .hbm, ⟨30, _⟩ => ⟨S4194304, .f32⟩
  | .hbm, ⟨31, _⟩ => ⟨S4194304, .f32⟩
  | .hbm, ⟨32, _⟩ => ⟨S4194304, .f32⟩
  | .hbm, ⟨33, _⟩ => ⟨S4194304, .f32⟩
  | .hbm, ⟨34, _⟩ => ⟨S4194304x1, .f32⟩
  | .hbm, ⟨35, _⟩ => ⟨S4194304x1, .f32⟩
  | .hbm, ⟨36, _⟩ => ⟨S4194304x2, .f32⟩
  | .hbm, ⟨37, _⟩ => ⟨S_, .f32⟩
  | .hbm, ⟨38, _⟩ => ⟨S4194304x2, .f32⟩
  | .hbm, ⟨39, _⟩ => ⟨S4194304x2, .f32⟩
  | _, _ => ⟨S4194304x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_5 : Ref sig .tc := ⟨.hbm, 20, rfl⟩
abbrev main_v13 : Ref sig .tc := ⟨.hbm, 21, rfl⟩
abbrev main_cst_6 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_7 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_8 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  transposes_S3x2_S2x3_1_0 : S3x2.Transposes [1, 0] S2x3
  reducesTo_S4194304x3_S4194304_d1 : S4194304x3.ReducesTo [1] S4194304
  h_S_ : 0 < S_.numel
  bcast_S_S4194304 : S_.BroadcastsInDim S4194304 (![] : Fin 0 → Fin S4194304.rank)
  transposes_S6x2_S2x6_1_0 : S6x2.Transposes [1, 0] S2x6
  reducesTo_S4194304x6_S4194304_d1 : S4194304x6.ReducesTo [1] S4194304
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  bcast_S_S4194304x2 : S_.BroadcastsInDim S4194304x2 (![] : Fin 0 → Fin S4194304x2.rank)
  dot_S4194304x2_S2x3_S4194304x3_1_0_0_1_n_n_wf : DotDims.WF S4194304x2 S2x3 S4194304x3 [1] [0] [0] [1] [] []
  dot_S4194304x2_S2x6_S4194304x6_1_0_0_1_n_n_wf : DotDims.WF S4194304x2 S2x6 S4194304x6 [1] [0] [0] [1] [] []

variable [Facts₀]

def dot_S4194304x2_S2x3_S4194304x3_1_0_0_1_n_n : DotDims S4194304x2 S2x3 S4194304x3 where
  lhsContracting := [1]
  rhsContracting := [0]
  lhsNonContracting := [0]
  rhsNonContracting := [1]
  lhsBatch := []
  rhsBatch := []
  wf := dot_S4194304x2_S2x3_S4194304x3_1_0_0_1_n_n_wf
def dot_S4194304x2_S2x6_S4194304x6_1_0_0_1_n_n : DotDims S4194304x2 S2x6 S4194304x6 where
  lhsContracting := [1]
  rhsContracting := [0]
  lhsNonContracting := [0]
  rhsNonContracting := [1]
  lhsBatch := []
  rhsBatch := []
  wf := dot_S4194304x2_S2x6_S4194304x6_1_0_0_1_n_n_wf

class Facts : Prop extends Facts₀ where

variable [Facts]
-- ==== Proof.Spec.lean ====
/-
  The two energy bands of a honeycomb lattice with nearest- and next-nearest-neighbour hopping and a mass term, at one
  wave vector (x, y), written twice over the extended reals with the literals kept as the single-precision words that
  denote them.

  The first form (`kerLo`, `kerHi`) takes three transcendentals — cos a, cos b, sin b with a = α·x, b = β·y — and
  builds the hopping sums from them as polynomials (double- and triple-angle and product-to-sum identities already
  applied). The second form (`refLo`, `refHi`) sums cos and sin of the phases x·u + y·v over the three
  nearest-neighbour vectors (u, v) and cos over the six next-nearest ones.

  Both give  ε ∓ √(M + f_re² + f_im²)  times a unit-conversion factor; `out` lays the two bands of every wave vector
  side by side in an array of rows (x, y) ↦ (lower band, upper band).
-/
import Idealize.ShloMosaic.PureOps.Ideal
import Idealize.ShloMosaic.Lib.ValueIdx

noncomputable section

namespace Cert.Bands

open Idealize.ShloMosaic Idealize.ShloMosaic.ValueIdx

/-- The extended real a single-precision word denotes. -/
abbrev lit (w : BitVec 32) : EReal := Ideal.ofBits .f32 w

/-! ## Three transcendentals and polynomials in them -/

/-- cos a, a = α·x. -/
def kerCa (x : EReal) : EReal := Ideal.cos (lit 0x2F073D6C#32 * x)
/-- cos b, b = β·y. -/
def kerCb (y : EReal) : EReal := Ideal.cos (lit 0x2E9C2960#32 * y)
/-- sin b. -/
def kerSb (y : EReal) : EReal := Ideal.sin (lit 0x2E9C2960#32 * y)

/-- Real part of the nearest-neighbour sum: −t·((2·cos²b − 1) + 2·cos a·cos b). -/
def kerFre (x y : EReal) : EReal :=
  lit 0xC0333333#32 * ((lit 0x40000000#32 * kerCb y * kerCb y - lit 0x3F800000#32) + lit 0x40000000#32 * kerCa x * kerCb y)
/-- Imaginary part: −t·(2·sin b·(cos a − cos b)). -/
def kerFim (x y : EReal) : EReal :=
  lit 0xC0333333#32 * (lit 0x40000000#32 * kerSb y * (kerCa x - kerCb y))
/-- The next-nearest-neighbour term: −2t'·((2·cos²a − 1) + 2·cos a·(4·cos³b − 3·cos b)). -/
def kerE (x y : EReal) : EReal :=
  lit 0xBE4CCCCD#32 * ((lit 0x40000000#32 * kerCa x * kerCa x - lit 0x3F800000#32)
    + lit 0x40000000#32 * kerCa x * (lit 0x40800000#32 * (kerCb y * kerCb y * kerCb y) - lit 0x40400000#32 * kerCb y))
/-- The gap's half-width √(M + f_re² + f_im²). -/
def kerR (x y : EReal) : EReal :=
  Ideal.sqrt (lit 0x3B23D70A#32 + kerFre x y * kerFre x y + kerFim x y * kerFim x y)
/-- Lower band. -/
def kerLo (x y : EReal) : EReal := (kerE x y - kerR x y) * lit 0x203D26D1#32
/-- Upper band. -/
def kerHi (x y : EReal) : EReal := (kerE x y + kerR x y) * lit 0x203D26D1#32

/-! ## Sums over the neighbour vectors -/

/-- The phase of the wave vector (x, y) against a lattice vector with components the words u, v. -/
def refPh (u v : BitVec 32) (x y : EReal) : EReal := x * lit u + y * lit v

/-- Real part: −t·Σ cos over the three nearest neighbours, the sum started from zero. -/
def refFre (x y : EReal) : EReal :=
  lit 0xC0333333#32 * (lit 0x00000000#32 + (Ideal.cos (refPh 0x00000000#32 0xAF1C2960#32 x y)
    + Ideal.cos (refPh 0x2F073D6C#32 0x2E9C2960#32 x y) + Ideal.cos (refPh 0xAF073D6C#32 0x2E9C2960#32 x y)))
/-- Imaginary part: −t·Σ sin over the same three. -/
def refFim (x y : EReal) : EReal :=
  lit 0xC0333333#32 * (lit 0x00000000#32 + (Ideal.sin (refPh 0x00000000#32 0xAF1C2960#32 x y)
    + Ideal.sin (refPh 0x2F073D6C#32 0x2E9C2960#32 x y) + Ideal.sin (refPh 0xAF073D6C#32 0x2E9C2960#32 x y)))
/-- −t'·Σ cos over the six next-nearest neighbours. -/
def refE (x y : EReal) : EReal :=
  lit 0xBDCCCCCD#32 * (lit 0x00000000#32 + (Ideal.cos (refPh 0x2F873D6C#32 0x00000000#32 x y)
    + Ideal.cos (refPh 0xAF873D6C#32 0x00000000#32 x y) + Ideal.cos (refPh 0x2F073D6C#32 0x2F6A3E10#32 x y)
    + Ideal.cos (refPh 0xAF073D6C#32 0xAF6A3E10#32 x y) + Ideal.cos (refPh 0x2F073D6C#32 0xAF6A3E10#32 x y)
    + Ideal.cos (refPh 0xAF073D6C#32 0x2F6A3E10#32 x y)))
/-- √(M + f_re² + f_im²). -/
def refR (x y : EReal) : EReal :=
  Ideal.sqrt (lit 0x3B23D70A#32 + refFre x y * refFre x y + refFim x y * refFim x y)
/-- Lower band. -/
def refLo (x y : EReal) : EReal := (refE x y - refR x y) * lit 0x203D26D1#32
/-- Upper band. -/
def refHi (x y : EReal) : EReal := (refE x y + refR x y) * lit 0x203D26D1#32

/-! ## The result array -/

/-- The array of wave vectors: row n holds (x, y). -/
abbrev SK : Shape := ⟨2, ![4194304, 2]⟩

/-- Row n of the result holds the lower band at column 0 and the upper band at column 1, each of row n of the input. -/
def out (lo hi : EReal → EReal → EReal) (k : SK.Idx → EReal) : SK.Idx → EReal := fun i =>
  if (i 1).val = 0 then lo (k (ix2 (i 0) (0 : Fin 2))) (k (ix2 (i 0) (1 : Fin 2)))
  else hi (k (ix2 (i 0) (0 : Fin 2))) (k (ix2 (i 0) (1 : Fin 2)))

end Cert.Bands

end
-- ==== Proof.KerBlock.lean ====
/-
  What the kernel body stores, read at one entry of a block: from the entries x, y of its two loaded blocks at the same
  position it stores the lower band (first output) and the upper band (second output) of the wave vector (x, y), in the
  three-transcendental form of the specification. The body's shape casts are between equal shapes and drop out; every
  other operation is pointwise, so the equation holds by unfolding.
-/
import proofs.«156056_j32530082300274_2_alg».proof.Proof.Gen.KernelIdeal.Frame
import proofs.«156056_j32530082300274_2_alg».proof.Proof.Spec
import Idealize.ShloMosaic.Lib.Pipeline.Value

noncomputable section

namespace Cert.KernelIdeal.BlockValue

open Cert.KernelIdeal Cert.KernelIdeal.Gen Idealize.ShloMosaic Idealize.ShloMosaic.TcCoe Idealize.SL.Sem
open Idealize.ShloMosaic.ValueIdx

/-- The zero offsets of the body's one rectangle, as the constant function. -/
theorem hz : (![0, 0] : Fin 2 → Nat) = fun _ => 0 := funext fun a => by fin_cases a <;> rfl

/-- The value stored to the first output, at an entry: the lower band of the two loaded entries. -/
theorem pay_lo (x0 x1 : Vec Ideal S256x2048 .f32) (y : S256x2048.Idx) :
    k0_pay3 (k0_pay8 x0 x1) (k0_pay9 x0 x1) (k0_pay10 x0) (k0_pay11 x0) (k0_pay12 x1) y = Cert.Bands.kerLo (x0 y) (x1 y) := by
  unfold k0_pay3 k0_pay1 k0_pay2 k0_pay8 k0_pay9 k0_pay10 k0_pay11 k0_pay12 k0_pay7 k0_pay6 k0_pay5
  simp only [shapeCast_self]
  rfl

/-- The value stored to the second output, at an entry: the upper band. -/
theorem pay_hi (x0 x1 : Vec Ideal S256x2048 .f32) (y : S256x2048.Idx) :
    k0_pay4 (k0_pay8 x0 x1) (k0_pay9 x0 x1) (k0_pay10 x0) (k0_pay11 x0) (k0_pay12 x1) y = Cert.Bands.kerHi (x0 y) (x1 y) := by
  unfold k0_pay4 k0_pay1 k0_pay2 k0_pay8 k0_pay9 k0_pay10 k0_pay11 k0_pay12 k0_pay7 k0_pay6 k0_pay5
  simp only [shapeCast_self]
  rfl

/-- So the first output's buffer after the body, entry by entry. -/
theorem out_lo (x0 x1 : Vec Ideal S256x2048 .f32) : out0_2 x0 x1 = fun y => Cert.Bands.kerLo (x0 y) (x1 y) := by
  unfold out0_2
  rw [View.canon_unit_zero hz]
  simp only [View.ld_unit_zero (S := S256x2048) hz]
  exact funext fun y => pay_lo x0 x1 y

/-- And the second's. -/
theorem out_hi (x0 x1 : Vec Ideal S256x2048 .f32) : out0_3 x0 x1 = fun y => Cert.Bands.kerHi (x0 y) (x1 y) := by
  unfold out0_3
  rw [View.canon_unit_zero hz]
  simp only [View.ld_unit_zero (S := S256x2048) hz]
  exact funext fun y => pay_hi x0 x1 y

end Cert.KernelIdeal.BlockValue

end
-- ==== Proof.KerArray.lean ====
/-
  From blocks to arrays. The grid has eight points; point t reads rows 256·t … 256·t + 255 (all 2048 columns) of the two
  input arrays and writes the same rows of the two output arrays. Each written entry is a band of the input entries at
  the same position, so what a point writes back is its block of ONE whole-array function of the inputs, and since the
  eight row bands tile the 2048 rows, each output array ends as that function everywhere.
-/
import proofs.«156056_j32530082300274_2_alg».proof.Proof.KerBlock

noncomputable section

namespace Cert.KernelIdeal.ArrayValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The lower band of every pair of entries at one position of the two input arrays. -/
def loArr (kx ky : S2048x2048.Idx → EReal) : S2048x2048.Idx → EReal := fun i => Cert.Bands.kerLo (kx i) (ky i)
/-- The upper band likewise. -/
def hiArr (kx ky : S2048x2048.Idx → EReal) : S2048x2048.Idx → EReal := fun i => Cert.Bands.kerHi (kx i) (ky i)

/-- The four index maps agree at every point: block (t, 0), and t runs over 0 … 7. -/
theorem idx_facts : ∀ t : Fin cfg0.N,
    win0_0.index t (0 : Fin 2) = win0_2.index t (0 : Fin 2) ∧ win0_0.index t (1 : Fin 2) = win0_2.index t (1 : Fin 2)
    ∧ win0_1.index t (0 : Fin 2) = win0_2.index t (0 : Fin 2) ∧ win0_1.index t (1 : Fin 2) = win0_2.index t (1 : Fin 2)
    ∧ win0_3.index t (0 : Fin 2) = win0_2.index t (0 : Fin 2) ∧ win0_3.index t (1 : Fin 2) = win0_2.index t (1 : Fin 2)
    ∧ win0_2.index t (0 : Fin 2) ≤ 7 ∧ win0_2.index t (1 : Fin 2) = 0 :=
  (by decide +kernel : ∀ t : Fin grid0.N, _)

/-- Every row band is some point's. -/
theorem idx_onto : ∀ q : Fin 8, ∃ t : Fin cfg0.N, win0_2.index t (0 : Fin 2) = q.val :=
  (by decide +kernel : ∀ q : Fin 8, ∃ t : Fin grid0.N, win0_2.index t (0 : Fin 2) = q.val)

/-- An input block's entry is the input array's entry under the OUTPUT's block at the same position. -/
theorem emb0 (t : Fin cfg0.N) (j : S256x2048.Idx) : ((cfg0.win 0).blk t).view.emb j = ((cfg0.win 2).blk t).view.emb j := by
  obtain ⟨e0, e1, e2, e3, e4, e5, e6, e7⟩ := idx_facts t
  funext a; apply Fin.ext
  match a with
  | ⟨0, _⟩ => show win0_0.index t (0 : Fin 2) * 256 + 1 * (j 0).val = win0_2.index t (0 : Fin 2) * 256 + 1 * (j 0).val; omega
  | ⟨1, _⟩ => show win0_0.index t (1 : Fin 2) * 2048 + 1 * (j 1).val = win0_2.index t (1 : Fin 2) * 2048 + 1 * (j 1).val; omega
theorem emb1 (t : Fin cfg0.N) (j : S256x2048.Idx) : ((cfg0.win 1).blk t).view.emb j = ((cfg0.win 2).blk t).view.emb j := by
  obtain ⟨e0, e1, e2, e3, e4, e5, e6, e7⟩ := idx_facts t
  funext a; apply Fin.ext
  match a with
  | ⟨0, _⟩ => show win0_1.index t (0 : Fin 2) * 256 + 1 * (j 0).val = win0_2.index t (0 : Fin 2) * 256 + 1 * (j 0).val; omega
  | ⟨1, _⟩ => show win0_1.index t (1 : Fin 2) * 2048 + 1 * (j 1).val = win0_2.index t (1 : Fin 2) * 2048 + 1 * (j 1).val; omega
theorem emb3 (t : Fin cfg0.N) (j : S256x2048.Idx) : ((cfg0.win 3).blk t).view.emb j = ((cfg0.win 2).blk t).view.emb j := by
  obtain ⟨e0, e1, e2, e3, e4, e5, e6, e7⟩ := idx_facts t
  funext a; apply Fin.ext
  match a with
  | ⟨0, _⟩ => show win0_3.index t (0 : Fin 2) * 256 + 1 * (j 0).val = win0_2.index t (0 : Fin 2) * 256 + 1 * (j 0).val; omega
  | ⟨1, _⟩ => show win0_3.index t (1 : Fin 2) * 2048 + 1 * (j 1).val = win0_2.index t (1 : Fin 2) * 2048 + 1 * (j 1).val; omega

/-- What point t writes back to the first output is block t of the lower-band array of the inputs as the region finds them. -/
theorem flushed_lo (c : Dev nD) (t : Fin cfg0.N) :
    (dats m 0 c).flushed 2 t = ((cfg0.win 2).blk t).view.read (Elt Ideal) (loArr (V m c main_v2) (V m c main_v5)) := by
  show (cfg0.win 2).cut (grid0.coords t) ((dats m 0 c).after 2 t) = _
  rw [after0_2, BlockValue.out_lo]
  funext j
  show Cert.Bands.kerLo (V m c main_v2 (((cfg0.win 0).blk t).view.emb j)) (V m c main_v5 (((cfg0.win 1).blk t).view.emb j))
    = Cert.Bands.kerLo (V m c main_v2 (((cfg0.win 2).blk t).view.emb j)) (V m c main_v5 (((cfg0.win 2).blk t).view.emb j))
  rw [emb0 t j, emb1 t j]

/-- And to the second output, block t of the upper-band array. -/
theorem flushed_hi (c : Dev nD) (t : Fin cfg0.N) :
    (dats m 0 c).flushed 3 t = ((cfg0.win 3).blk t).view.read (Elt Ideal) (hiArr (V m c main_v2) (V m c main_v5)) := by
  show (cfg0.win 3).cut (grid0.coords t) ((dats m 0 c).after 3 t) = _
  rw [after0_3, BlockValue.out_hi]
  funext j
  show Cert.Bands.kerHi (V m c main_v2 (((cfg0.win 0).blk t).view.emb j)) (V m c main_v5 (((cfg0.win 1).blk t).view.emb j))
    = Cert.Bands.kerHi (V m c main_v2 (((cfg0.win 3).blk t).view.emb j)) (V m c main_v5 (((cfg0.win 3).blk t).view.emb j))
  rw [emb0 t j, emb1 t j, emb3 t j]

/-- An index of the first output array is in point t's block iff each coordinate is in the block's range on its axis. -/
theorem mem_blk2 (t : Fin cfg0.N) (i : S2048x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v6_0).slice (win0_2.rect t)).set ↔ _
  rw [View.set_slice_whole, Rect.mem_set_unit]
  exact Iff.rfl
theorem mem_blk3 (t : Fin cfg0.N) (i : S2048x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v6_1).slice (win0_3.rect t)).set ↔ _
  rw [View.set_slice_whole, Rect.mem_set_unit]
  exact Iff.rfl

/-- Every index is in the block of the point whose row band holds its row: row r is in band r / 256. -/
theorem cover2 (i : S2048x2048.Idx) : ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := idx_onto ⟨(i 0).val / 256, by omega⟩
  have q0 : win0_2.index t (0 : Fin 2) = (i 0).val / 256 := ht
  obtain ⟨e0, e1, e2, e3, e4, e5, e6, e7⟩ := idx_facts t
  refine ⟨t, flush0_2 t, ?_⟩
  rw [mem_blk2]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega
theorem cover3 (i : S2048x2048.Idx) : ∃ t : Fin cfg0.N, (cfg0.win 3).flush t = true ∧ i ∈ ((cfg0.win 3).blk t).view.set := by
  have hi0 : (i 0).val < 2048 := (i 0).isLt
  have hi1 : (i 1).val < 2048 := (i 1).isLt
  obtain ⟨t, ht⟩ := idx_onto ⟨(i 0).val / 256, by omega⟩
  have q0 : win0_2.index t (0 : Fin 2) = (i 0).val / 256 := ht
  obtain ⟨e0, e1, e2, e3, e4, e5, e6, e7⟩ := idx_facts t
  refine ⟨t, flush0_3 t, ?_⟩
  rw [mem_blk3]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-- The first output array after the run: the lower band of the two input arrays, everywhere. -/
theorem final_lo (c : Dev nD) : (dats m 0 c).arrAt 2 cfg0.N = loArr (V m c main_v2) (V m c main_v5) :=
  (dats m 0 c).arrAt_eq_of_cover 2 (loArr (V m c main_v2) (V m c main_v5)) (fun t _ => flushed_lo m c t) cover2

/-- The second: the upper band. -/
theorem final_hi (c : Dev nD) : (dats m 0 c).arrAt 3 cfg0.N = hiArr (V m c main_v2) (V m c main_v5) :=
  (dats m 0 c).arrAt_eq_of_cover 3 (hiArr (V m c main_v2) (V m c main_v5)) (fun t _ => flushed_hi m c t) cover3

end Cert.KernelIdeal.ArrayValue

end
-- ==== Proof.KerHost.lean ====
/-
  The host operations around the region, and the kernel's run read as one function of its argument.

  Before the region the N × 2 array of wave vectors (N = 2048 · 2048) is split into its two columns and each column is
  laid out as a 2048 × 2048 grid, row-major: grid entry (p, q) is row p · 2048 + q. After the region each 2048 × 2048
  output is flattened back (entry n is grid entry (n / 2048, n % 2048)), made a column, and the two columns are set side by
  side. So row n of the result holds the lower and the upper band of row n of the argument.
-/
import proofs.«156056_j32530082300274_2_alg».proof.Proof.KerArray
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.ValueIdx Cert.KernelIdeal.ArrayValue
open Idealize.ShloMosaic.Pipeline (Dat)

/-! ## The columns as grids -/

/-- The first column of the wave-vector array on the 2048 × 2048 grid. -/
def gridX (k : S4194304x2.Idx → EReal) : S2048x2048.Idx → EReal :=
  shapeCast S2048x2048 (shapeCast S4194304 (extractStridedSlice S4194304x1 ![0, 0] k slices_S4194304x2_S4194304x1_0_0)
    shapeCasts_S4194304x1_S4194304) shapeCasts_S4194304_S2048x2048
/-- The second column likewise. -/
def gridY (k : S4194304x2.Idx → EReal) : S2048x2048.Idx → EReal :=
  shapeCast S2048x2048 (shapeCast S4194304 (extractStridedSlice S4194304x1 ![0, 1] k slices_S4194304x2_S4194304x1_0_1)
    shapeCasts_S4194304x1_S4194304) shapeCasts_S4194304_S2048x2048

/-- Grid entry (p, q) of the first column is row p · 2048 + q, column 0. -/
theorem gridX_apply (k : S4194304x2.Idx → EReal) (p q : Fin 2048) (n : Fin 4194304) (hn : n.val = p.val * 2048 + q.val) :
    gridX k (ix2 p q) = k (ix2 n (0 : Fin 2)) := by
  unfold gridX
  refine (shapeCast_apply _ _ (ix2 p q) (ix1 n) ?_).trans ?_
  · rw [Shape.rowMajor_val_two, Shape.rowMajor_val_one]; exact hn
  refine (shapeCast_apply _ _ (ix1 n) (ix2 n (0 : Fin 1)) ?_).trans ?_
  · rw [Shape.rowMajor_val_two, Shape.rowMajor_val_one]; show n.val * 1 + 0 = n.val; omega
  exact extractStridedSlice_apply _ _ _ (ix2 n (0 : Fin 1)) (ix2 n (0 : Fin 2)) (fun a => by
    match a with
    | ⟨0, _⟩ => show n.val = 0 + n.val; omega
    | ⟨1, _⟩ => show (0 : Nat) = 0 + 0; rfl)

/-- Grid entry (p, q) of the second column is row p · 2048 + q, column 1. -/
theorem gridY_apply (k : S4194304x2.Idx → EReal) (p q : Fin 2048) (n : Fin 4194304) (hn : n.val = p.val * 2048 + q.val) :
    gridY k (ix2 p q) = k (ix2 n (1 : Fin 2)) := by
  unfold gridY
  refine (shapeCast_apply _ _ (ix2 p q) (ix1 n) ?_).trans ?_
  · rw [Shape.rowMajor_val_two, Shape.rowMajor_val_one]; exact hn
  refine (shapeCast_apply _ _ (ix1 n) (ix2 n (0 : Fin 1)) ?_).trans ?_
  · rw [Shape.rowMajor_val_two, Shape.rowMajor_val_one]; show n.val * 1 + 0 = n.val; omega
  exact extractStridedSlice_apply _ _ _ (ix2 n (0 : Fin 1)) (ix2 n (1 : Fin 2)) (fun a => by
    match a with
    | ⟨0, _⟩ => show n.val = 0 + n.val; omega
    | ⟨1, _⟩ => show (1 : Nat) = 1 + 0; rfl)

/-! ## Two grids flattened and set side by side -/

/-- The two 2048 × 2048 arrays flattened to columns of length N and set side by side. -/
def stack (lo hi : S2048x2048.Idx → EReal) : S4194304x2.Idx → EReal :=
  concatenate S4194304x2 1
    [⟨S4194304x1, broadcastInDim S4194304x1 ![0] bcast_S4194304_S4194304x1_0 (shapeCast S4194304 lo shapeCasts_S2048x2048_S4194304)⟩,
     ⟨S4194304x1, broadcastInDim S4194304x1 ![0] bcast_S4194304_S4194304x1_0 (shapeCast S4194304 hi shapeCasts_S2048x2048_S4194304)⟩]
    concatenates_S4194304x1_S4194304x1_S4194304x2_d1

/-- A flattened grid made a column, at row n: grid entry (n / 2048, n % 2048). -/
theorem column_apply (g : S2048x2048.Idx → EReal) (n : Fin 4194304) (p q : Fin 2048) (hn : n.val = p.val * 2048 + q.val) :
    broadcastInDim S4194304x1 ![0] bcast_S4194304_S4194304x1_0 (shapeCast S4194304 g shapeCasts_S2048x2048_S4194304) (ix2 n (0 : Fin 1))
      = g (ix2 p q) := by
  refine (broadcastInDim_apply _ _ _ (ix2 n (0 : Fin 1)) (ix1 n) (fun a => by
    match a with
    | ⟨0, _⟩ => show n.val = if (4194304 : Nat) = 1 then 0 else n.val; rw [if_neg (by decide)])).trans ?_
  refine shapeCast_apply _ _ (ix1 n) (ix2 p q) ?_
  rw [Shape.rowMajor_val_two, Shape.rowMajor_val_one]; exact hn.symm

/-- Column 0 of the pair, at row n, is the first grid at (n / 2048, n % 2048). -/
theorem stack_left (lo hi : S2048x2048.Idx → EReal) (n : Fin 4194304) (p q : Fin 2048) (hn : n.val = p.val * 2048 + q.val) :
    stack lo hi (ix2 n (0 : Fin 2)) = lo (ix2 p q) := by
  unfold stack
  refine (concatenate_pair_apply_left (t := S4194304x2) (s₁ := S4194304x1) (s₂ := S4194304x1) (1 : Fin 2) _ _ _ (ix2 n (0 : Fin 2)) rfl (ix2 n (0 : Fin 1)) (fun b => by
    match b with
    | ⟨0, _⟩ => rfl
    | ⟨1, _⟩ => rfl)).trans ?_
  exact column_apply lo n p q hn

/-- Column 1, at row n, is the second grid there. -/
theorem stack_right (lo hi : S2048x2048.Idx → EReal) (n : Fin 4194304) (p q : Fin 2048) (hn : n.val = p.val * 2048 + q.val) :
    stack lo hi (ix2 n (1 : Fin 2)) = hi (ix2 p q) := by
  unfold stack
  refine (concatenate_pair_apply_right (t := S4194304x2) (s₁ := S4194304x1) (s₂ := S4194304x1) (1 : Fin 2) _ _ _ (ix2 n (1 : Fin 2)) rfl rfl (ix2 n (0 : Fin 1)) (fun b hb => by
    match b with
    | ⟨0, _⟩ => rfl
    | ⟨1, _⟩ => exact absurd rfl hb) (by show (0 : Nat) + 1 = 1; rfl)).trans ?_
  exact column_apply hi n p q hn

/-- The specification's array at column 0 and at column 1 of row n. -/
theorem out_left (lo hi : EReal → EReal → EReal) (k : S4194304x2.Idx → EReal) (n : Fin 4194304) :
    Cert.Bands.out lo hi k (ix2 n (0 : Fin 2)) = lo (k (ix2 n (0 : Fin 2))) (k (ix2 n (1 : Fin 2))) := by
  unfold Cert.Bands.out; exact if_pos rfl
theorem out_right (lo hi : EReal → EReal → EReal) (k : S4194304x2.Idx → EReal) (n : Fin 4194304) :
    Cert.Bands.out lo hi k (ix2 n (1 : Fin 2)) = hi (k (ix2 n (0 : Fin 2))) (k (ix2 n (1 : Fin 2))) := by
  unfold Cert.Bands.out; exact if_neg (show ¬ ((1 : Fin 2).val = 0) by decide)

/-- The bands of the gridded columns, flattened and set side by side, are the specification's array: row n holds the two
    bands of row n, because (n / 2048) · 2048 + n % 2048 = n. -/
theorem stack_bands (k : S4194304x2.Idx → EReal) :
    stack (loArr (gridX k) (gridY k)) (hiArr (gridX k) (gridY k)) = Cert.Bands.out Cert.Bands.kerLo Cert.Bands.kerHi k := by
  funext i
  obtain ⟨n, j, rfl⟩ : ∃ (n : Fin 4194304) (j : Fin 2), i = ix2 n j := ⟨i 0, i 1, eq_ix2 i⟩
  have hn : n.val < 4194304 := n.isLt
  have hpq : n.val = (⟨n.val / 2048, by omega⟩ : Fin 2048).val * 2048 + (⟨n.val % 2048, by omega⟩ : Fin 2048).val := by
    show n.val = n.val / 2048 * 2048 + n.val % 2048; omega
  match j with
  | ⟨0, _⟩ =>
    show stack _ _ (ix2 n (0 : Fin 2)) = Cert.Bands.out _ _ k (ix2 n (0 : Fin 2))
    rw [stack_left _ _ n _ _ hpq, out_left]
    unfold loArr
    rw [gridX_apply k _ _ n hpq, gridY_apply k _ _ n hpq]
  | ⟨1, _⟩ =>
    show stack _ _ (ix2 n (1 : Fin 2)) = Cert.Bands.out _ _ k (ix2 n (1 : Fin 2))
    rw [stack_right _ _ n _ _ hpq, out_right]
    unfold hiArr
    rw [gridX_apply k _ _ n hpq, gridY_apply k _ _ n hpq]

/-! ## The program's host lines -/

variable (m : (ℓ : Loc nD τ sig) → Buf (Elt Ideal) ℓ) (ρ : Dev nD → PrngReg)

/-- The region finds its first input array at the first column of the argument, gridded. -/
theorem V_kx (c : Dev nD) : (V m c main_v2 : S2048x2048.Idx → EReal) = gridX (m ((c : Thread nD τ).loc main_arg0)) := by
  show StableHlo.after hostOps0 (fun b => m (c, b)) (Proc.devRef .tc main_v2) = _
  after_results
  rfl

/-- And its second at the second column. -/
theorem V_ky (c : Dev nD) : (V m c main_v5 : S2048x2048.Idx → EReal) = gridY (m ((c : Thread nD τ).loc main_arg0)) := by
  show StableHlo.after hostOps0 (fun b => m (c, b)) (Proc.devRef .tc main_v5) = _
  after_results
  rfl

/-- The lines after the region leave the result at the two output arrays flattened and set side by side. -/
theorem tail_eq (c : Dev nD) :
    (Pipeline.afterTail₀ cfgs (dats m) 0 (V0 m) [hostOps1] c main_v11 : S4194304x2.Idx → EReal)
      = stack ((dats m 0 c).arrAt 2 cfg0.N) ((dats m 0 c).arrAt 3 cfg0.N) := by
  unfold Pipeline.afterTail₀
  show StableHlo.after hostOps1 _ (Proc.devRef .tc main_v11) = _
  after_results
  rw [Pipeline.withArrays_arr spec0 launch0.win.arr_inj c _ _ 2, Pipeline.withArrays_arr spec0 launch0.win.arr_inj c _ _ 3]
  rfl

/-- The kernel's run: every weakly fair execution ends with the result at the two bands of every row of the argument, in the
    three-transcendental form, and the argument unchanged. -/
theorem run : θ_run defs (onTc (τ := τ) (main (F := Ideal))) ⟨m, fun _ => 0, ρ⟩ fun r => ∀ c : Dev nD,
      r.2.mem ((c.tc : Thread nD τ).loc main_v11)
        = Cert.Bands.out Cert.Bands.kerLo Cert.Bands.kerHi (m ((c.tc : Thread nD τ).loc main_arg0))
      ∧ r.2.mem ((c.tc : Thread nD τ).loc main_arg0) = m ((c.tc : Thread nD τ).loc main_arg0) :=
  (θ_run defs _ _).mono (fun r h c =>
    ⟨((h c).2 main_v11 (Pipeline.mem_restRefs_of main_v11 (by decide) (by decide))).trans
        ((tail_eq m c).trans (by rw [final_lo, final_hi, V_kx, V_ky]; exact stack_bands _)),
      ((h c).2 main_arg0 (Pipeline.mem_restRefs_of main_arg0 (by decide) (by decide))).trans (W_main_arg0 m (dats m) c)⟩)
    (run_main m ρ)

end Cert.KernelIdeal.HostValue

end
-- ==== Proof.RefRun.lean ====
/-
  The reference program's 39 host operations as a list, and its run: every weakly fair execution terminates with the
  result buffer holding one closed function `refTerm` of the wave-vector array it was launched with, and that array
  unchanged.

  `refTerm` is written in stages that follow the physics: the phases of every wave vector against the three
  nearest-neighbour vectors (`phA`) and the six next-nearest ones (`phB`), the three hopping sums (`fre`, `fim`,
  `en`), the half-width of the gap (`rad`), and the two bands laid side by side and converted to the output unit.
-/
import proofs.«156056_j32530082300274_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the reference, in order. -/
abbrev ops : List (HloOp τ sig (Elt F)) :=
  [ nullary main_cst (fun i => FloatOps.ofBits .f32 (lit0 (S3x2.rowMajor i))),
    nullary main_cst_0 (fun i => FloatOps.ofBits .f32 (lit1 (S6x2.rowMajor i))),
    unary main_cst main_v0 ((transpose S2x3 [1, 0] · transposes_S3x2_S2x3_1_0) : (⟨S3x2, .f32⟩ : BufTy).Contents (Elt F) → (⟨S2x3, .f32⟩ : BufTy).Contents (Elt F)),
    binary main_arg0 main_v0 main_v1 ((fun l r => Host.dotGeneral dot_S4194304x2_S2x3_S4194304x3_1_0_0_1_n_n none l r) : (⟨S4194304x2, .f32⟩ : BufTy).Contents (Elt F) → (⟨S2x3, .f32⟩ : BufTy).Contents (Elt F) → (⟨S4194304x3, .f32⟩ : BufTy).Contents (Elt F)),
    unary main_v1 main_v2 (Host.cos : (⟨S4194304x3, .f32⟩ : BufTy).Contents (Elt F) → (⟨S4194304x3, .f32⟩ : BufTy).Contents (Elt F)),
    nullary main_cst_1 (constant S_ .f32 0x00000000#32),
    binary main_v2 main_cst_1 main_v3 ((fun x v => Host.reduceAdd x v reducesTo_S4194304x3_S4194304_d1 h_S_) : (⟨S4194304x3, .f32⟩ : BufTy).Contents (Elt F) → (⟨S_, .f32⟩ : BufTy).Contents (Elt F) → (⟨S4194304, .f32⟩ : BufTy).Contents (Elt F)),
    nullary main_cst_2 (constant S_ .f32 0xC0333333#32),
    unary main_cst_2 main_v4 (broadcastInDim S4194304 ![] bcast_S_S4194304 : (⟨S_, .f32⟩ : BufTy).Contents (Elt F) → (⟨S4194304, .f32⟩ : BufTy).Contents (Elt F)),
    binary main_v4 main_v3 main_v5 (mulf : (⟨S4194304, .f32⟩ : BufTy).Contents (Elt F) → (⟨S4194304, .f32⟩ : BufTy).Contents (Elt F) → (⟨S4194304, .f32⟩ : BufTy).Contents (Elt F)),
    unary main_v1 main_v6 (Host.sin : (⟨S4194304x3, .f32⟩ : BufTy).Contents (Elt F) → (⟨S4194304x3, .f32⟩ : BufTy).Contents (Elt F)),
    nullary main_cst_3 (constant S_ .f32 0x00000000#32),
    binary main_v6 main_cst_3 main_v7 ((fun x v => Host.reduceAdd x v reducesTo_S4194304x3_S4194304_d1 h_S_) : (⟨S4194304x3, .f32⟩ : BufTy).Contents (Elt F) → (⟨S_, .f32⟩ : BufTy).Contents (Elt F) → (⟨S4194304, .f32⟩ : BufTy).Contents (Elt F)),
    nullary main_cst_4 (constant S_ .f32 0xC0333333#32),
    unary main_cst_4 main_v8 (broadcastInDim S4194304 ![] bcast_S_S4194304 : (⟨S_, .f32⟩ : BufTy).Contents (Elt F) → (⟨S4194304, .f32⟩ : BufTy).Contents (Elt F)),
    binary main_v8 main_v7 main_v9 (mulf : (⟨S4194304, .f32⟩ : BufTy).Contents (Elt F) → (⟨S4194304, .f32⟩ : BufTy).Contents (Elt F) → (⟨S4194304, .f32⟩ : BufTy).Contents (Elt F)),
    unary main_cst_0 main_v10 ((transpose S2x6 [1, 0] · transposes_S6x2_S2x6_1_0) : (⟨S6x2, .f32⟩ : BufTy).Contents (Elt F) → (⟨S2x6, .f32⟩ : BufTy).Contents (Elt F)),
    binary main_arg0 main_v10 main_v11 ((fun l r => Host.dotGeneral dot_S4194304x2_S2x6_S4194304x6_1_0_0_1_n_n none l r) : (⟨S4194304x2, .f32⟩ : BufTy).Contents (Elt F) → (⟨S2x6, .f32⟩ : BufTy).Contents (Elt F) → (⟨S4194304x6, .f32⟩ : BufTy).Contents (Elt F)),
    unary main_v11 main_v12 (Host.cos : (⟨S4194304x6, .f32⟩ : BufTy).Contents (Elt F) → (⟨S4194304x6, .f32⟩ : BufTy).Contents (Elt F)),
    nullary main_cst_5 (constant S_ .f32 0x00000000#32),
    binary main_v12 main_cst_5 main_v13 ((fun x v => Host.reduceAdd x v reducesTo_S4194304x6_S4194304_d1 h_S_) : (⟨S4194304x6, .f32⟩ : BufTy).Contents (Elt F) → (⟨S_, .f32⟩ : BufTy).Contents (Elt F) → (⟨S4194304, .f32⟩ : BufTy).Contents (Elt F)),
    nullary main_cst_6 (constant S_ .f32 0xBDCCCCCD#32),
    unary main_cst_6 main_v14 (broadcastInDim S4194304 ![] bcast_S_S4194304 : (⟨S_, .f32⟩ : BufTy).Contents (Elt F) → (⟨S4194304, .f32⟩ : BufTy).Contents (Elt F)),
    binary main_v14 main_v13 main_v15 (mulf : (⟨S4194304, .f32⟩ : BufTy).Contents (Elt F) → (⟨S4194304, .f32⟩ : BufTy).Contents (Elt F) → (⟨S4194304, .f32⟩ : BufTy).Contents (Elt F)),
    binary main_v5 main_v5 main_v16 (mulf : (⟨S4194304, .f32⟩ : BufTy).Contents (Elt F) → (⟨S4194304, .f32⟩ : BufTy).Contents (Elt F) → (⟨S4194304, .f32⟩ : BufTy).Contents (Elt F)),
    nullary main_cst_7 (constant S_ .f32 0x3B23D70A#32),
    unary main_cst_7 main_v17 (broadcastInDim S4194304 ![] bcast_S_S4194304 : (⟨S_, .f32⟩ : BufTy).Contents (Elt F) → (⟨S4194304, .f32⟩ : BufTy).Contents (Elt F)),
    binary main_v17 main_v16 main_v18 (addf : (⟨S4194304, .f32⟩ : BufTy).Contents (Elt F) → (⟨S4194304, .f32⟩ : BufTy).Contents (Elt F) → (⟨S4194304, .f32⟩ : BufTy).Contents (Elt F)),
    binary main_v9 main_v9 main_v19 (mulf : (⟨S4194304, .f32⟩ : BufTy).Contents (Elt F) → (⟨S4194304, .f32⟩ : BufTy).Contents (Elt F) → (⟨S4194304, .f32⟩ : BufTy).Contents (Elt F)),
    binary main_v18 main_v19 main_v20 (addf : (⟨S4194304, .f32⟩ : BufTy).Contents (Elt F) → (⟨S4194304, .f32⟩ : BufTy).Contents (Elt F) → (⟨S4194304, .f32⟩ : BufTy).Contents (Elt F)),
    unary main_v20 main_v21 (Host.sqrt : (⟨S4194304, .f32⟩ : BufTy).Contents (Elt F) → (⟨S4194304, .f32⟩ : BufTy).Contents (Elt F)),
    binary main_v15 main_v21 main_v22 (subf : (⟨S4194304, .f32⟩ : BufTy).Contents (Elt F) → (⟨S4194304, .f32⟩ : BufTy).Contents (Elt F) → (⟨S4194304, .f32⟩ : BufTy).Contents (Elt F)),
    binary main_v15 main_v21 main_v23 (addf : (⟨S4194304, .f32⟩ : BufTy).Contents (Elt F) → (⟨S4194304, .f32⟩ : BufTy).Contents (Elt F) → (⟨S4194304, .f32⟩ : BufTy).Contents (Elt F)),
    unary main_v22 main_v24 (broadcastInDim S4194304x1 ![0] bcast_S4194304_S4194304x1_0 : (⟨S4194304, .f32⟩ : BufTy).Contents (Elt F) → (⟨S4194304x1, .f32⟩ : BufTy).Contents (Elt F)),
    unary main_v23 main_v25 (broadcastInDim S4194304x1 ![0] bcast_S4194304_S4194304x1_0 : (⟨S4194304, .f32⟩ : BufTy).Contents (Elt F) → (⟨S4194304x1, .f32⟩ : BufTy).Contents (Elt F)),
    binary main_v24 main_v25 main_v26 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    nullary main_cst_8 (constant S_ .f32 0x203D26D1#32),
    unary main_cst_8 main_v27 (broadcastInDim S4194304x2 ![] bcast_S_S4194304x2 : (⟨S_, .f32⟩ : BufTy).Contents (Elt F) → (⟨S4194304x2, .f32⟩ : BufTy).Contents (Elt F)),
    binary main_v26 main_v27 main_v28 (mulf : (⟨S4194304x2, .f32⟩ : BufTy).Contents (Elt F) → (⟨S4194304x2, .f32⟩ : BufTy).Contents (Elt F) → (⟨S4194304x2, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., unary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., binary_bufs_sub .., unary_bufs_sub .., nullary_bufs_sub .., binary_bufs_sub .., nullary_bufs_sub .., unary_bufs_sub .., binary_bufs_sub .., binary_bufs_sub .., nullary_bufs_sub .., unary_bufs_sub .., binary_bufs_sub .., binary_bufs_sub .., binary_bufs_sub .., unary_bufs_sub .., binary_bufs_sub .., binary_bufs_sub .., unary_bufs_sub .., unary_bufs_sub .., binary_bufs_sub .., nullary_bufs_sub .., unary_bufs_sub .., binary_bufs_sub ..⟩

/-! ## The result as one function of the input, in stages -/

/-- The three nearest-neighbour vectors, one per row (u, v). -/
def tabA : (⟨S3x2, .f32⟩ : BufTy).Contents (Elt F) := fun i => FloatOps.ofBits .f32 (lit0 (S3x2.rowMajor i))
/-- The six next-nearest-neighbour vectors, one per row. -/
def tabB : (⟨S6x2, .f32⟩ : BufTy).Contents (Elt F) := fun i => FloatOps.ofBits .f32 (lit1 (S6x2.rowMajor i))

/-- Row n, column j: the phase x·u_j + y·v_j of wave vector n against nearest neighbour j. -/
def phA (k : (⟨S4194304x2, .f32⟩ : BufTy).Contents (Elt F)) : (⟨S4194304x3, .f32⟩ : BufTy).Contents (Elt F) :=
  Host.dotGeneral dot_S4194304x2_S2x3_S4194304x3_1_0_0_1_n_n none k (transpose S2x3 [1, 0] tabA transposes_S3x2_S2x3_1_0)
/-- The same against the six next-nearest neighbours. -/
def phB (k : (⟨S4194304x2, .f32⟩ : BufTy).Contents (Elt F)) : (⟨S4194304x6, .f32⟩ : BufTy).Contents (Elt F) :=
  Host.dotGeneral dot_S4194304x2_S2x6_S4194304x6_1_0_0_1_n_n none k (transpose S2x6 [1, 0] tabB transposes_S6x2_S2x6_1_0)

/-- The zero every neighbour sum starts from. -/
def zero : (⟨S_, .f32⟩ : BufTy).Contents (Elt F) := constant S_ .f32 0x00000000#32
/-- One scalar, the same for every wave vector. -/
def splat (w : BitVec 32) : (⟨S4194304, .f32⟩ : BufTy).Contents (Elt F) := broadcastInDim S4194304 ![] bcast_S_S4194304 (constant S_ .f32 w)

/-- Real part of the nearest-neighbour sum: −t · Σ_j cos(phase_j). -/
def fre (k : (⟨S4194304x2, .f32⟩ : BufTy).Contents (Elt F)) : (⟨S4194304, .f32⟩ : BufTy).Contents (Elt F) :=
  mulf (splat 0xC0333333#32) (Host.reduceAdd (Host.cos (phA k)) zero reducesTo_S4194304x3_S4194304_d1 h_S_)
/-- Imaginary part: −t · Σ_j sin(phase_j). -/
def fim (k : (⟨S4194304x2, .f32⟩ : BufTy).Contents (Elt F)) : (⟨S4194304, .f32⟩ : BufTy).Contents (Elt F) :=
  mulf (splat 0xC0333333#32) (Host.reduceAdd (Host.sin (phA k)) zero reducesTo_S4194304x3_S4194304_d1 h_S_)
/-- The next-nearest-neighbour term: −t' · Σ_j cos(phase_j) over the six. -/
def en (k : (⟨S4194304x2, .f32⟩ : BufTy).Contents (Elt F)) : (⟨S4194304, .f32⟩ : BufTy).Contents (Elt F) :=
  mulf (splat 0xBDCCCCCD#32) (Host.reduceAdd (Host.cos (phB k)) zero reducesTo_S4194304x6_S4194304_d1 h_S_)
/-- The half-width of the gap: √(M + f_re² + f_im²). -/
def rad (k : (⟨S4194304x2, .f32⟩ : BufTy).Contents (Elt F)) : (⟨S4194304, .f32⟩ : BufTy).Contents (Elt F) :=
  Host.sqrt (addf (addf (splat 0x3B23D70A#32) (mulf (fre k) (fre k))) (mulf (fim k) (fim k)))
/-- A band as a one-column array. -/
def col (b : (⟨S4194304, .f32⟩ : BufTy).Contents (Elt F)) : (⟨S4194304x1, .f32⟩ : BufTy).Contents (Elt F) :=
  broadcastInDim S4194304x1 ![0] bcast_S4194304_S4194304x1_0 b

/-- The result: lower band beside upper band, times the unit-conversion factor. -/
def refTerm (k : (⟨S4194304x2, .f32⟩ : BufTy).Contents (Elt F)) : (⟨S4194304x2, .f32⟩ : BufTy).Contents (Elt F) :=
  mulf (concatenate S4194304x2 1 [⟨S4194304x1, col (subf (en k) (rad k))⟩, ⟨S4194304x1, col (addf (en k) (rad k))⟩]
      concatenates_S4194304x1_S4194304x1_S4194304x2_d1)
    (broadcastInDim S4194304x2 ![] bcast_S_S4194304x2 (constant S_ .f32 0x203D26D1#32))

/-- On every device, for any float values, from any memory with zero counters: every weakly fair execution of the
    reference terminates with the result buffer at `refTerm` of the input array, and the input array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v28).trans (by after_results_simp; rfl),
      (h c main_arg0).trans (by after_results_simp)⟩)
    (run_seq scopedRefs_eq scopedSems_eq defs main (fun _ => ops) main_eq (fun _ => ops_sub) m ρ)

end Cert.ReferenceIdeal.RefRun

end
-- ==== Proof.RefValue.lean ====
/-
  The reference's result read index by index: row n of `refTerm k` holds, at column 0, the lower band and, at column 1,
  the upper band of the wave vector (x, y) = row n of k — the closed forms `Cert.Bands.refLo` and `Cert.Bands.refHi`.

  The steps follow the stages of `refTerm`. A phase is a two-term contraction x·u + y·v against one row (u, v) of a
  neighbour table, whose entries are read off the table's words at the literal small indices. A hopping sum is the zero
  it starts from plus the three (or six) terms of its row. The rest is pointwise: scaling, squares, the square root, the
  difference and the sum, and the two one-column arrays laid side by side.
-/
import proofs.«156056_j32530082300274_2_alg».proof.Proof.RefRun
import proofs.«156056_j32530082300274_2_alg».proof.Proof.Spec
import Idealize.ShloMosaic.PureOps.Ideal.Laws
import Idealize.ShloMosaic.Lib.IdealHost
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.TcCoe Idealize.SL.Sem
open Idealize.ShloMosaic.ValueIdx
open scoped BigOperators

/-! ## The two contractions: which elements of the operands an output element multiplies -/

abbrev DA := dot_S4194304x2_S2x3_S4194304x3_1_0_0_1_n_n
abbrev DB := dot_S4194304x2_S2x6_S4194304x6_1_0_0_1_n_n

theorem lhsA_0 (j : S4194304x3.Idx) (q : DA.contr.Idx) : (DA.lhsIdx j q 0 : ℕ) = j 0 := by
  simp [DotDims.lhsIdx, DA, dot_S4194304x2_S2x3_S4194304x3_1_0_0_1_n_n]; rfl
theorem lhsA_1 (j : S4194304x3.Idx) (q : DA.contr.Idx) : (DA.lhsIdx j q 1 : ℕ) = q ⟨0, by decide⟩ := by
  simp [DotDims.lhsIdx, DA, dot_S4194304x2_S2x3_S4194304x3_1_0_0_1_n_n]; rfl
theorem rhsA_0 (j : S4194304x3.Idx) (q : DA.contr.Idx) : (DA.rhsIdx j q 0 : ℕ) = q ⟨0, by decide⟩ := by
  simp [DotDims.rhsIdx, DA, dot_S4194304x2_S2x3_S4194304x3_1_0_0_1_n_n]; rfl
theorem rhsA_1 (j : S4194304x3.Idx) (q : DA.contr.Idx) : (DA.rhsIdx j q 1 : ℕ) = j 1 := by
  simp [DotDims.rhsIdx, DA, dot_S4194304x2_S2x3_S4194304x3_1_0_0_1_n_n]; rfl

/-- The contraction runs over the two components of a wave vector. -/
def eA : DA.contr.Idx ≃ Fin 2 := contrEquiv1 DA 2 rfl rfl

/-- At output (n, j) and component c the left operand is read at (n, c) … -/
theorem lhsA_eq (n : Fin 4194304) (j : Fin 3) (c : Fin 2) : DA.lhsIdx (ix2 n j) (eA.symm c) = ix2 n c := by
  funext a
  match a with
  | ⟨0, _⟩ => exact Fin.ext (lhsA_0 _ _)
  | ⟨1, _⟩ => exact Fin.ext ((lhsA_1 _ _).trans (contrEquiv1_symm_val DA 2 rfl rfl c))
/-- … and the right operand at (c, j). -/
theorem rhsA_eq (n : Fin 4194304) (j : Fin 3) (c : Fin 2) : DA.rhsIdx (ix2 n j) (eA.symm c) = ix2 c j := by
  funext a
  match a with
  | ⟨0, _⟩ => exact Fin.ext ((rhsA_0 _ _).trans (contrEquiv1_symm_val DA 2 rfl rfl c))
  | ⟨1, _⟩ => exact Fin.ext (rhsA_1 _ _)

theorem lhsB_0 (j : S4194304x6.Idx) (q : DB.contr.Idx) : (DB.lhsIdx j q 0 : ℕ) = j 0 := by
  simp [DotDims.lhsIdx, DB, dot_S4194304x2_S2x6_S4194304x6_1_0_0_1_n_n]; rfl
theorem lhsB_1 (j : S4194304x6.Idx) (q : DB.contr.Idx) : (DB.lhsIdx j q 1 : ℕ) = q ⟨0, by decide⟩ := by
  simp [DotDims.lhsIdx, DB, dot_S4194304x2_S2x6_S4194304x6_1_0_0_1_n_n]; rfl
theorem rhsB_0 (j : S4194304x6.Idx) (q : DB.contr.Idx) : (DB.rhsIdx j q 0 : ℕ) = q ⟨0, by decide⟩ := by
  simp [DotDims.rhsIdx, DB, dot_S4194304x2_S2x6_S4194304x6_1_0_0_1_n_n]; rfl
theorem rhsB_1 (j : S4194304x6.Idx) (q : DB.contr.Idx) : (DB.rhsIdx j q 1 : ℕ) = j 1 := by
  simp [DotDims.rhsIdx, DB, dot_S4194304x2_S2x6_S4194304x6_1_0_0_1_n_n]; rfl

/-- The contraction runs over the two components of a wave vector. -/
def eB : DB.contr.Idx ≃ Fin 2 := contrEquiv1 DB 2 rfl rfl

/-- At output (n, j) and component c the left operand is read at (n, c) … -/
theorem lhsB_eq (n : Fin 4194304) (j : Fin 6) (c : Fin 2) : DB.lhsIdx (ix2 n j) (eB.symm c) = ix2 n c := by
  funext a
  match a with
  | ⟨0, _⟩ => exact Fin.ext (lhsB_0 _ _)
  | ⟨1, _⟩ => exact Fin.ext ((lhsB_1 _ _).trans (contrEquiv1_symm_val DB 2 rfl rfl c))
/-- … and the right operand at (c, j). -/
theorem rhsB_eq (n : Fin 4194304) (j : Fin 6) (c : Fin 2) : DB.rhsIdx (ix2 n j) (eB.symm c) = ix2 c j := by
  funext a
  match a with
  | ⟨0, _⟩ => exact Fin.ext ((rhsB_0 _ _).trans (contrEquiv1_symm_val DB 2 rfl rfl c))
  | ⟨1, _⟩ => exact Fin.ext (rhsB_1 _ _)

/-! ## The neighbour tables: transposed, then read at literal indices -/

/-- The transposed table read at (c, j) is the table at (j, c): component c of neighbour vector j. -/
theorem tabAT_apply (c : Fin 2) (j : Fin 3) :
    transpose S2x3 [1, 0] (tabA (F := Ideal)) transposes_S3x2_S2x3_1_0 (ix2 c j) = Cert.Bands.lit (lit0 (S3x2.rowMajor (ix2 j c))) :=
  transpose_apply _ _ _ _ (ix2 j c) (by intro b; match b with | ⟨0, _⟩ => rfl | ⟨1, _⟩ => rfl)
theorem tabBT_apply (c : Fin 2) (j : Fin 6) :
    transpose S2x6 [1, 0] (tabB (F := Ideal)) transposes_S6x2_S2x6_1_0 (ix2 c j) = Cert.Bands.lit (lit1 (S6x2.rowMajor (ix2 j c))) :=
  transpose_apply _ _ _ _ (ix2 j c) (by intro b; match b with | ⟨0, _⟩ => rfl | ⟨1, _⟩ => rfl)

/-- The phase of wave vector n against nearest neighbour j: x·u_j + y·v_j, the two terms of the contraction. -/
theorem phA_apply (k : S4194304x2.Idx → EReal) (n : Fin 4194304) (j : Fin 3) :
    phA (F := Ideal) k (ix2 n j)
      = Cert.Bands.refPh (lit0 (S3x2.rowMajor (ix2 j (0 : Fin 2)))) (lit0 (S3x2.rowMajor (ix2 j (1 : Fin 2))))
          (k (ix2 n (0 : Fin 2))) (k (ix2 n (1 : Fin 2))) := by
  unfold phA Cert.Bands.refPh
  refine (Ideal.dotGeneral_apply DA none .single k _ (ix2 n j)).trans ?_
  rw [← Equiv.sum_comp eA.symm, Fin.sum_univ_two, lhsA_eq, rhsA_eq, lhsA_eq, rhsA_eq, tabAT_apply, tabAT_apply]
/-- The same against next-nearest neighbour j. -/
theorem phB_apply (k : S4194304x2.Idx → EReal) (n : Fin 4194304) (j : Fin 6) :
    phB (F := Ideal) k (ix2 n j)
      = Cert.Bands.refPh (lit1 (S6x2.rowMajor (ix2 j (0 : Fin 2)))) (lit1 (S6x2.rowMajor (ix2 j (1 : Fin 2))))
          (k (ix2 n (0 : Fin 2))) (k (ix2 n (1 : Fin 2))) := by
  unfold phB Cert.Bands.refPh
  refine (Ideal.dotGeneral_apply DB none .single k _ (ix2 n j)).trans ?_
  rw [← Equiv.sum_comp eB.symm, Fin.sum_univ_two, lhsB_eq, rhsB_eq, lhsB_eq, rhsB_eq, tabBT_apply, tabBT_apply]

/-- The words of the tables, row by row. -/
theorem wA00 : lit0 (S3x2.rowMajor (ix2 (0 : Fin 3) (0 : Fin 2))) = 0x00000000#32 := by decide
theorem wA01 : lit0 (S3x2.rowMajor (ix2 (0 : Fin 3) (1 : Fin 2))) = 0xAF1C2960#32 := by decide
theorem wA10 : lit0 (S3x2.rowMajor (ix2 (1 : Fin 3) (0 : Fin 2))) = 0x2F073D6C#32 := by decide
theorem wA11 : lit0 (S3x2.rowMajor (ix2 (1 : Fin 3) (1 : Fin 2))) = 0x2E9C2960#32 := by decide
theorem wA20 : lit0 (S3x2.rowMajor (ix2 (2 : Fin 3) (0 : Fin 2))) = 0xAF073D6C#32 := by decide
theorem wA21 : lit0 (S3x2.rowMajor (ix2 (2 : Fin 3) (1 : Fin 2))) = 0x2E9C2960#32 := by decide
theorem wB00 : lit1 (S6x2.rowMajor (ix2 (0 : Fin 6) (0 : Fin 2))) = 0x2F873D6C#32 := by decide
theorem wB01 : lit1 (S6x2.rowMajor (ix2 (0 : Fin 6) (1 : Fin 2))) = 0x00000000#32 := by decide
theorem wB10 : lit1 (S6x2.rowMajor (ix2 (1 : Fin 6) (0 : Fin 2))) = 0xAF873D6C#32 := by decide
theorem wB11 : lit1 (S6x2.rowMajor (ix2 (1 : Fin 6) (1 : Fin 2))) = 0x00000000#32 := by decide
theorem wB20 : lit1 (S6x2.rowMajor (ix2 (2 : Fin 6) (0 : Fin 2))) = 0x2F073D6C#32 := by decide
theorem wB21 : lit1 (S6x2.rowMajor (ix2 (2 : Fin 6) (1 : Fin 2))) = 0x2F6A3E10#32 := by decide
theorem wB30 : lit1 (S6x2.rowMajor (ix2 (3 : Fin 6) (0 : Fin 2))) = 0xAF073D6C#32 := by decide
theorem wB31 : lit1 (S6x2.rowMajor (ix2 (3 : Fin 6) (1 : Fin 2))) = 0xAF6A3E10#32 := by decide
theorem wB40 : lit1 (S6x2.rowMajor (ix2 (4 : Fin 6) (0 : Fin 2))) = 0x2F073D6C#32 := by decide
theorem wB41 : lit1 (S6x2.rowMajor (ix2 (4 : Fin 6) (1 : Fin 2))) = 0xAF6A3E10#32 := by decide
theorem wB50 : lit1 (S6x2.rowMajor (ix2 (5 : Fin 6) (0 : Fin 2))) = 0xAF073D6C#32 := by decide
theorem wB51 : lit1 (S6x2.rowMajor (ix2 (5 : Fin 6) (1 : Fin 2))) = 0x2F6A3E10#32 := by decide

/-- The nine phases with their words in place. -/
theorem phA_0 (k : S4194304x2.Idx → EReal) (n : Fin 4194304) :
    phA (F := Ideal) k (ix2 n (0 : Fin 3)) = Cert.Bands.refPh 0x00000000#32 0xAF1C2960#32 (k (ix2 n (0 : Fin 2))) (k (ix2 n (1 : Fin 2))) := by
  rw [phA_apply, wA00, wA01]
theorem phA_1 (k : S4194304x2.Idx → EReal) (n : Fin 4194304) :
    phA (F := Ideal) k (ix2 n (1 : Fin 3)) = Cert.Bands.refPh 0x2F073D6C#32 0x2E9C2960#32 (k (ix2 n (0 : Fin 2))) (k (ix2 n (1 : Fin 2))) := by
  rw [phA_apply, wA10, wA11]
theorem phA_2 (k : S4194304x2.Idx → EReal) (n : Fin 4194304) :
    phA (F := Ideal) k (ix2 n (2 : Fin 3)) = Cert.Bands.refPh 0xAF073D6C#32 0x2E9C2960#32 (k (ix2 n (0 : Fin 2))) (k (ix2 n (1 : Fin 2))) := by
  rw [phA_apply, wA20, wA21]
theorem phB_0 (k : S4194304x2.Idx → EReal) (n : Fin 4194304) :
    phB (F := Ideal) k (ix2 n (0 : Fin 6)) = Cert.Bands.refPh 0x2F873D6C#32 0x00000000#32 (k (ix2 n (0 : Fin 2))) (k (ix2 n (1 : Fin 2))) := by
  rw [phB_apply, wB00, wB01]
theorem phB_1 (k : S4194304x2.Idx → EReal) (n : Fin 4194304) :
    phB (F := Ideal) k (ix2 n (1 : Fin 6)) = Cert.Bands.refPh 0xAF873D6C#32 0x00000000#32 (k (ix2 n (0 : Fin 2))) (k (ix2 n (1 : Fin 2))) := by
  rw [phB_apply, wB10, wB11]
theorem phB_2 (k : S4194304x2.Idx → EReal) (n : Fin 4194304) :
    phB (F := Ideal) k (ix2 n (2 : Fin 6)) = Cert.Bands.refPh 0x2F073D6C#32 0x2F6A3E10#32 (k (ix2 n (0 : Fin 2))) (k (ix2 n (1 : Fin 2))) := by
  rw [phB_apply, wB20, wB21]
theorem phB_3 (k : S4194304x2.Idx → EReal) (n : Fin 4194304) :
    phB (F := Ideal) k (ix2 n (3 : Fin 6)) = Cert.Bands.refPh 0xAF073D6C#32 0xAF6A3E10#32 (k (ix2 n (0 : Fin 2))) (k (ix2 n (1 : Fin 2))) := by
  rw [phB_apply, wB30, wB31]
theorem phB_4 (k : S4194304x2.Idx → EReal) (n : Fin 4194304) :
    phB (F := Ideal) k (ix2 n (4 : Fin 6)) = Cert.Bands.refPh 0x2F073D6C#32 0xAF6A3E10#32 (k (ix2 n (0 : Fin 2))) (k (ix2 n (1 : Fin 2))) := by
  rw [phB_apply, wB40, wB41]
theorem phB_5 (k : S4194304x2.Idx → EReal) (n : Fin 4194304) :
    phB (F := Ideal) k (ix2 n (5 : Fin 6)) = Cert.Bands.refPh 0xAF073D6C#32 0x2F6A3E10#32 (k (ix2 n (0 : Fin 2))) (k (ix2 n (1 : Fin 2))) := by
  rw [phB_apply, wB50, wB51]

/-! ## The neighbour sums -/

theorem hRA : S4194304x3.Reduces [1] S4194304 :=
  ⟨reducesTo_S4194304x3_S4194304_d1.1, Nat.one_pos, reducesTo_S4194304x3_S4194304_d1.2⟩
theorem hRB : S4194304x6.Reduces [1] S4194304 :=
  ⟨reducesTo_S4194304x6_S4194304_d1.1, Nat.one_pos, reducesTo_S4194304x6_S4194304_d1.2⟩

/-- Term j of row n's sum is the array's element (n, j). -/
theorem liftA (n : Fin 4194304) (q : Fin 3) : hRA.lift (ix1 n) q = ix2 n q := by
  funext a
  match a with
  | ⟨0, _⟩ => exact Fin.ext rfl
  | ⟨1, _⟩ => exact Fin.ext rfl
theorem liftB (n : Fin 4194304) (q : Fin 6) : hRB.lift (ix1 n) q = ix2 n q := by
  funext a
  match a with
  | ⟨0, _⟩ => exact Fin.ext rfl
  | ⟨1, _⟩ => exact Fin.ext rfl

/-- A row's sum over three columns: the zero it starts from plus the three terms, in order. -/
theorem sumA_apply (x : S4194304x3.Idx → EReal) (n : Fin 4194304) :
    Host.reduceAdd (F := Ideal) (φ := .f32) x (zero (F := Ideal)) reducesTo_S4194304x3_S4194304_d1 h_S_ (ix1 n)
      = Cert.Bands.lit 0x00000000#32 + (x (ix2 n (0 : Fin 3)) + x (ix2 n (1 : Fin 3)) + x (ix2 n (2 : Fin 3))) := by
  refine (hostReduceAdd_apply x _ _ _ _).trans ?_
  refine (Ideal.hostReduceAdd_single _ hRA x _ (ix1 n)).trans ?_
  show _ + ∑ q : Fin 3, x (hRA.lift (ix1 n) q) = _
  rw [Fin.sum_univ_three, liftA, liftA, liftA]
  rfl
/-- A row's sum over six columns. -/
theorem sumB_apply (x : S4194304x6.Idx → EReal) (n : Fin 4194304) :
    Host.reduceAdd (F := Ideal) (φ := .f32) x (zero (F := Ideal)) reducesTo_S4194304x6_S4194304_d1 h_S_ (ix1 n)
      = Cert.Bands.lit 0x00000000#32 + (x (ix2 n (0 : Fin 6)) + x (ix2 n (1 : Fin 6)) + x (ix2 n (2 : Fin 6))
          + x (ix2 n (3 : Fin 6)) + x (ix2 n (4 : Fin 6)) + x (ix2 n (5 : Fin 6))) := by
  refine (hostReduceAdd_apply x _ _ _ _).trans ?_
  refine (Ideal.hostReduceAdd_single _ hRB x _ (ix1 n)).trans ?_
  show _ + ∑ q : Fin 6, x (hRB.lift (ix1 n) q) = _
  rw [Fin.sum_univ_six, liftB, liftB, liftB, liftB, liftB, liftB]
  rfl

/-- A scalar spread over the wave vectors reads that scalar everywhere. -/
theorem splat_apply (w : BitVec 32) (j : S4194304.Idx) : splat (F := Ideal) w j = Cert.Bands.lit w := by
  unfold splat
  rw [broadcastInDim_scalar_apply]
  rfl

theorem cos_apply {s : Shape} (x : s.Idx → EReal) (i : s.Idx) : Host.cos (F := Ideal) (φ := .f32) x i = Ideal.cos (x i) := rfl
theorem sin_apply {s : Shape} (x : s.Idx → EReal) (i : s.Idx) : Host.sin (F := Ideal) (φ := .f32) x i = Ideal.sin (x i) := rfl
theorem sqrt_apply {s : Shape} (x : s.Idx → EReal) (i : s.Idx) : Host.sqrt (F := Ideal) (φ := .f32) x i = Ideal.sqrt (x i) := rfl

/-- Real part of the nearest-neighbour sum at wave vector n. -/
theorem fre_apply (k : S4194304x2.Idx → EReal) (n : Fin 4194304) :
    fre (F := Ideal) k (ix1 n) = Cert.Bands.refFre (k (ix2 n (0 : Fin 2))) (k (ix2 n (1 : Fin 2))) := by
  unfold fre Cert.Bands.refFre
  rw [mulf_apply, splat_apply, sumA_apply, cos_apply, cos_apply, cos_apply, phA_0, phA_1, phA_2]
/-- Imaginary part. -/
theorem fim_apply (k : S4194304x2.Idx → EReal) (n : Fin 4194304) :
    fim (F := Ideal) k (ix1 n) = Cert.Bands.refFim (k (ix2 n (0 : Fin 2))) (k (ix2 n (1 : Fin 2))) := by
  unfold fim Cert.Bands.refFim
  rw [mulf_apply, splat_apply, sumA_apply, sin_apply, sin_apply, sin_apply, phA_0, phA_1, phA_2]
/-- The next-nearest-neighbour term. -/
theorem en_apply (k : S4194304x2.Idx → EReal) (n : Fin 4194304) :
    en (F := Ideal) k (ix1 n) = Cert.Bands.refE (k (ix2 n (0 : Fin 2))) (k (ix2 n (1 : Fin 2))) := by
  unfold en Cert.Bands.refE
  rw [mulf_apply, splat_apply, sumB_apply, cos_apply, cos_apply, cos_apply, cos_apply, cos_apply, cos_apply,
    phB_0, phB_1, phB_2, phB_3, phB_4, phB_5]
/-- The half-width of the gap. -/
theorem rad_apply (k : S4194304x2.Idx → EReal) (n : Fin 4194304) :
    rad (F := Ideal) k (ix1 n) = Cert.Bands.refR (k (ix2 n (0 : Fin 2))) (k (ix2 n (1 : Fin 2))) := by
  unfold rad Cert.Bands.refR
  rw [sqrt_apply, addf_apply, addf_apply, mulf_apply, mulf_apply, splat_apply, fre_apply, fim_apply]

/-! ## The two bands side by side -/

/-- A band as a one-column array reads the band at the row. -/
theorem col_apply (b : S4194304.Idx → EReal) (n : Fin 4194304) : col (F := Ideal) b (ix2 n (0 : Fin 1)) = b (ix1 n) := by
  unfold col
  exact broadcastInDim_apply _ _ b _ (ix1 n) (by intro a; match a with | ⟨0, _⟩ => exact (if_neg (by decide : ¬ (4194304 : ℕ) = 1)).symm)

/-- Column 0 of the pair is the first one-column array … -/
theorem pair_left (x₁ x₂ : S4194304x1.Idx → EReal) (n : Fin 4194304) :
    concatenate S4194304x2 1 [⟨S4194304x1, x₁⟩, ⟨S4194304x1, x₂⟩] concatenates_S4194304x1_S4194304x1_S4194304x2_d1 (ix2 n (0 : Fin 2))
      = x₁ (ix2 n (0 : Fin 1)) :=
  concatenate_pair_apply_left (t := S4194304x2) 1 x₁ x₂ concatenates_S4194304x1_S4194304x1_S4194304x2_d1 (ix2 n (0 : Fin 2)) rfl (ix2 n (0 : Fin 1)) (by intro b; match b with | ⟨0, _⟩ => rfl | ⟨1, _⟩ => rfl)
/-- … and column 1 the second. -/
theorem pair_right (x₁ x₂ : S4194304x1.Idx → EReal) (n : Fin 4194304) :
    concatenate S4194304x2 1 [⟨S4194304x1, x₁⟩, ⟨S4194304x1, x₂⟩] concatenates_S4194304x1_S4194304x1_S4194304x2_d1 (ix2 n (1 : Fin 2))
      = x₂ (ix2 n (0 : Fin 1)) :=
  concatenate_pair_apply_right (t := S4194304x2) 1 x₁ x₂ concatenates_S4194304x1_S4194304x1_S4194304x2_d1 (ix2 n (1 : Fin 2)) rfl rfl (ix2 n (0 : Fin 1))
    (by intro b hb; match b, hb with | ⟨0, _⟩, _ => rfl | ⟨1, _⟩, hb => exact absurd rfl hb) rfl

/-- The unit-conversion factor reads the same everywhere. -/
theorem unit_apply (j : S4194304x2.Idx) :
    broadcastInDim S4194304x2 ![] bcast_S_S4194304x2 (constant (F := Ideal) S_ .f32 0x203D26D1#32) j = Cert.Bands.lit 0x203D26D1#32 := by
  rw [broadcastInDim_scalar_apply]
  rfl

/-- Row n, column 0: the lower band of wave vector n. -/
theorem refTerm_lo (k : S4194304x2.Idx → EReal) (n : Fin 4194304) :
    refTerm (F := Ideal) k (ix2 n (0 : Fin 2)) = Cert.Bands.refLo (k (ix2 n (0 : Fin 2))) (k (ix2 n (1 : Fin 2))) := by
  unfold refTerm Cert.Bands.refLo
  rw [mulf_apply, unit_apply, pair_left, col_apply, subf_apply, en_apply, rad_apply]
/-- Row n, column 1: the upper band. -/
theorem refTerm_hi (k : S4194304x2.Idx → EReal) (n : Fin 4194304) :
    refTerm (F := Ideal) k (ix2 n (1 : Fin 2)) = Cert.Bands.refHi (k (ix2 n (0 : Fin 2))) (k (ix2 n (1 : Fin 2))) := by
  unfold refTerm Cert.Bands.refHi
  rw [mulf_apply, unit_apply, pair_right, col_apply, addf_apply, en_apply, rad_apply]

/-- The reference's result is the array of the two closed-form bands. -/
theorem refTerm_eq (k : S4194304x2.Idx → EReal) :
    refTerm (F := Ideal) k = Cert.Bands.out Cert.Bands.refLo Cert.Bands.refHi k := by
  funext i
  have hi := eq_ix2 i
  generalize i 0 = n at hi
  generalize i 1 = c at hi
  subst hi
  match c with
  | ⟨0, _⟩ => exact (refTerm_lo k n).trans (if_pos rfl).symm
  | ⟨1, _⟩ => exact (refTerm_hi k n).trans (if_neg Nat.one_ne_zero).symm

/-- On every device, from any memory with zero counters: every weakly fair execution of the reference terminates with
    the result buffer holding, row by row, the two closed-form bands of the input array's wave vectors, and the input
    array unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28) = Cert.Bands.out Cert.Bands.refLo Cert.Bands.refHi (m ((c.tc : Thread nD τ).loc main_arg0))
      ∧ r.2.mem ((c.tc : Thread nD τ).loc main_arg0) = m ((c.tc : Thread nD τ).loc main_arg0) :=
  (θ_run _ _ _).mono (fun _ h c => ⟨(h c).1.trans (refTerm_eq _), (h c).2⟩) (RefRun.run m ρ)

end Cert.ReferenceIdeal.RefValue

end
-- ==== Proof.Scalar.lean ====
/-
  The two forms of the band energies agree at every real wave vector (x, y).

  Every literal word denotes a dyadic rational. With α and β the two lattice constants, the neighbour vectors have
  components 0, ±α, ±2α, ±β, ±2β, ±3β exactly (same significand, exponent shifted, or three times the significand),
  so with a = α·x and b = β·y the nearest-neighbour phases are −2b, a + b, −a + b and the next-nearest ones are
  ±2a, ±(a + 3b), ±(a − 3b). The angle-addition, double-angle and triple-angle formulas then turn the sums of
  cosines and sines into the polynomials in cos a, cos b, sin b; no Pythagorean identity is used.
-/
import proofs.«156056_j32530082300274_2_alg».proof.Proof.Spec
import Mathlib.Analysis.SpecialFunctions.Trigonometric.Basic

noncomputable section

namespace Cert.Bands

open Idealize.ShloMosaic

/-! ## The reals the literal words denote -/

/-- The lattice constant α = 8863084 · 2⁻⁵⁶. -/
def alpha : ℝ := 8863084 * (2 : ℝ) ^ (-56 : ℤ)
/-- The lattice constant β = 10234208 · 2⁻⁵⁷. -/
def beta : ℝ := 10234208 * (2 : ℝ) ^ (-57 : ℤ)
/-- The nearest-neighbour amplitude −t = −11744051 · 2⁻²². -/
def hopN : ℝ := -(11744051 * (2 : ℝ) ^ (-22 : ℤ))
/-- The next-nearest-neighbour amplitude −t' = −13421773 · 2⁻²⁷. -/
def hopNN : ℝ := -(13421773 * (2 : ℝ) ^ (-27 : ℤ))

theorem lit_alpha : lit 0x2F073D6C#32 = ((alpha : ℝ) : EReal) := by
  simp [alpha, Ideal.ofBits, Ideal.ieee, -EReal.coe_mul]
theorem lit_neg_alpha : lit 0xAF073D6C#32 = ((-alpha : ℝ) : EReal) := by
  simp [alpha, Ideal.ofBits, Ideal.ieee, -EReal.coe_mul]
/-- Same significand as α, exponent one higher. -/
theorem lit_two_alpha : lit 0x2F873D6C#32 = ((2 * alpha : ℝ) : EReal) := by
  simp [alpha, Ideal.ofBits, Ideal.ieee, -EReal.coe_mul]; norm_num
theorem lit_neg_two_alpha : lit 0xAF873D6C#32 = ((-(2 * alpha) : ℝ) : EReal) := by
  simp [alpha, Ideal.ofBits, Ideal.ieee, -EReal.coe_mul]; norm_num
theorem lit_beta : lit 0x2E9C2960#32 = ((beta : ℝ) : EReal) := by
  simp [beta, Ideal.ofBits, Ideal.ieee, -EReal.coe_mul]
/-- Same significand as β, exponent one higher, sign set. -/
theorem lit_neg_two_beta : lit 0xAF1C2960#32 = ((-(2 * beta) : ℝ) : EReal) := by
  simp [beta, Ideal.ofBits, Ideal.ieee, -EReal.coe_mul]; norm_num
/-- Significand 15351312 at exponent −56: three times β's 10234208 at exponent −57. -/
theorem lit_three_beta : lit 0x2F6A3E10#32 = ((3 * beta : ℝ) : EReal) := by
  simp [beta, Ideal.ofBits, Ideal.ieee, -EReal.coe_mul]; norm_num
theorem lit_neg_three_beta : lit 0xAF6A3E10#32 = ((-(3 * beta) : ℝ) : EReal) := by
  simp [beta, Ideal.ofBits, Ideal.ieee, -EReal.coe_mul]; norm_num
theorem lit_hopN : lit 0xC0333333#32 = ((hopN : ℝ) : EReal) := by
  simp [hopN, Ideal.ofBits, Ideal.ieee, -EReal.coe_mul]
theorem lit_hopNN : lit 0xBDCCCCCD#32 = ((hopNN : ℝ) : EReal) := by
  simp [hopNN, Ideal.ofBits, Ideal.ieee, -EReal.coe_mul]
/-- Same significand as −t', exponent one higher. -/
theorem lit_two_hopNN : lit 0xBE4CCCCD#32 = ((2 * hopNN : ℝ) : EReal) := by
  simp [hopNN, Ideal.ofBits, Ideal.ieee, -EReal.coe_mul]; norm_num
theorem lit_zero : lit 0x00000000#32 = ((0 : ℝ) : EReal) := by
  simp [Ideal.ofBits, Ideal.ieee]
theorem lit_one : lit 0x3F800000#32 = ((1 : ℝ) : EReal) := by
  simp [Ideal.ofBits, Ideal.ieee, -EReal.coe_mul]; norm_num
theorem lit_two : lit 0x40000000#32 = ((2 : ℝ) : EReal) := by
  simp [Ideal.ofBits, Ideal.ieee, -EReal.coe_mul]; norm_num
theorem lit_three : lit 0x40400000#32 = ((3 : ℝ) : EReal) := by
  simp [Ideal.ofBits, Ideal.ieee, -EReal.coe_mul]; norm_num
theorem lit_four : lit 0x40800000#32 = ((4 : ℝ) : EReal) := by
  simp [Ideal.ofBits, Ideal.ieee, -EReal.coe_mul]; norm_num

/-! ## The trigonometric identities, over the reals -/

/-- cos(−2b) + cos(a + b) + cos(−a + b) = (2cos²b − 1) + 2·cos a·cos b. -/
theorem cos_sum3 (a b : ℝ) :
    Real.cos (-(2 * b)) + Real.cos (a + b) + Real.cos (-a + b)
      = (2 * Real.cos b * Real.cos b - 1) + 2 * Real.cos a * Real.cos b := by
  simp only [Real.cos_neg, Real.sin_neg, Real.cos_add, Real.cos_two_mul]
  ring

/-- sin(−2b) + sin(a + b) + sin(−a + b) = 2·sin b·(cos a − cos b). -/
theorem sin_sum3 (a b : ℝ) :
    Real.sin (-(2 * b)) + Real.sin (a + b) + Real.sin (-a + b)
      = 2 * Real.sin b * (Real.cos a - Real.cos b) := by
  simp only [Real.cos_neg, Real.sin_neg, Real.sin_add, Real.sin_two_mul]
  ring

/-- The six next-nearest phases ±2a, ±(a + 3b), ±(a − 3b): the sines cancel in pairs, leaving
    2·cos 2a + 4·cos a·cos 3b, and cos 3b = 4cos³b − 3cos b. -/
theorem cos_sum6 (a b : ℝ) :
    Real.cos (2 * a) + Real.cos (-(2 * a)) + Real.cos (a + 3 * b) + Real.cos (-a + -(3 * b))
        + Real.cos (a + -(3 * b)) + Real.cos (-a + 3 * b)
      = 2 * ((2 * Real.cos a * Real.cos a - 1)
          + 2 * Real.cos a * (4 * (Real.cos b * Real.cos b * Real.cos b) - 3 * Real.cos b)) := by
  simp only [Real.cos_neg, Real.sin_neg, Real.cos_add, Real.cos_two_mul, Real.cos_three_mul]
  ring

/-- The nearest-neighbour cosines at the wave vector (x, y). -/
theorem re_real (x y : ℝ) :
    Real.cos (x * 0 + y * -(2 * beta)) + Real.cos (x * alpha + y * beta) + Real.cos (x * -alpha + y * beta)
      = (2 * Real.cos (beta * y) * Real.cos (beta * y) - 1) + 2 * Real.cos (alpha * x) * Real.cos (beta * y) := by
  have h1 : x * 0 + y * -(2 * beta) = -(2 * (beta * y)) := by ring
  have h2 : x * alpha + y * beta = alpha * x + beta * y := by ring
  have h3 : x * -alpha + y * beta = -(alpha * x) + beta * y := by ring
  rw [h1, h2, h3]
  exact cos_sum3 _ _

/-- The nearest-neighbour sines at the wave vector (x, y). -/
theorem im_real (x y : ℝ) :
    Real.sin (x * 0 + y * -(2 * beta)) + Real.sin (x * alpha + y * beta) + Real.sin (x * -alpha + y * beta)
      = 2 * Real.sin (beta * y) * (Real.cos (alpha * x) - Real.cos (beta * y)) := by
  have h1 : x * 0 + y * -(2 * beta) = -(2 * (beta * y)) := by ring
  have h2 : x * alpha + y * beta = alpha * x + beta * y := by ring
  have h3 : x * -alpha + y * beta = -(alpha * x) + beta * y := by ring
  rw [h1, h2, h3]
  exact sin_sum3 _ _

/-- The next-nearest-neighbour cosines at the wave vector (x, y). -/
theorem e_real (x y : ℝ) :
    Real.cos (x * (2 * alpha) + y * 0) + Real.cos (x * -(2 * alpha) + y * 0)
        + Real.cos (x * alpha + y * (3 * beta)) + Real.cos (x * -alpha + y * -(3 * beta))
        + Real.cos (x * alpha + y * -(3 * beta)) + Real.cos (x * -alpha + y * (3 * beta))
      = 2 * ((2 * Real.cos (alpha * x) * Real.cos (alpha * x) - 1)
          + 2 * Real.cos (alpha * x)
            * (4 * (Real.cos (beta * y) * Real.cos (beta * y) * Real.cos (beta * y)) - 3 * Real.cos (beta * y))) := by
  have h1 : x * (2 * alpha) + y * 0 = 2 * (alpha * x) := by ring
  have h2 : x * -(2 * alpha) + y * 0 = -(2 * (alpha * x)) := by ring
  have h3 : x * alpha + y * (3 * beta) = alpha * x + 3 * (beta * y) := by ring
  have h4 : x * -alpha + y * -(3 * beta) = -(alpha * x) + -(3 * (beta * y)) := by ring
  have h5 : x * alpha + y * -(3 * beta) = alpha * x + -(3 * (beta * y)) := by ring
  have h6 : x * -alpha + y * (3 * beta) = -(alpha * x) + 3 * (beta * y) := by ring
  rw [h1, h2, h3, h4, h5, h6]
  exact cos_sum6 _ _

/-! ## The two forms agree, over the extended reals at real arguments

Each side is brought under a single coercion from the reals (products, sums and differences of coerced reals are
coerced reals, and cos and sin of a coerced real are the coerced real cos and sin); the equality is then the real
identity above. -/

theorem kerFre_eq (x y : ℝ) : kerFre (x : EReal) (y : EReal) = refFre (x : EReal) (y : EReal) := by
  unfold kerFre refFre kerCa kerCb refPh
  rw [lit_hopN, lit_two, lit_one, lit_alpha, lit_beta, lit_zero, lit_neg_two_beta, lit_neg_alpha]
  simp only [← EReal.coe_mul, ← EReal.coe_add, ← EReal.coe_sub, Ideal.cos_coe]
  rw [EReal.coe_eq_coe_iff, zero_add, re_real]

theorem kerFim_eq (x y : ℝ) : kerFim (x : EReal) (y : EReal) = refFim (x : EReal) (y : EReal) := by
  unfold kerFim refFim kerCa kerCb kerSb refPh
  rw [lit_hopN, lit_two, lit_alpha, lit_beta, lit_zero, lit_neg_two_beta, lit_neg_alpha]
  simp only [← EReal.coe_mul, ← EReal.coe_add, ← EReal.coe_sub, Ideal.cos_coe, Ideal.sin_coe]
  rw [EReal.coe_eq_coe_iff, zero_add, im_real]

theorem kerE_eq (x y : ℝ) : kerE (x : EReal) (y : EReal) = refE (x : EReal) (y : EReal) := by
  unfold kerE refE kerCa kerCb refPh
  rw [lit_two_hopNN, lit_hopNN, lit_two, lit_one, lit_four, lit_three, lit_alpha, lit_beta, lit_zero,
    lit_two_alpha, lit_neg_two_alpha, lit_three_beta, lit_neg_three_beta, lit_neg_alpha]
  simp only [← EReal.coe_mul, ← EReal.coe_add, ← EReal.coe_sub, Ideal.cos_coe]
  rw [EReal.coe_eq_coe_iff, zero_add, e_real]
  ring

/-- The square root is taken of the same extended real on both sides; it is not evaluated. -/
theorem kerR_eq (x y : ℝ) : kerR (x : EReal) (y : EReal) = refR (x : EReal) (y : EReal) := by
  unfold kerR refR
  rw [kerFre_eq, kerFim_eq]

theorem ker_eq_ref_lo (x y : ℝ) : kerLo (x : EReal) (y : EReal) = refLo (x : EReal) (y : EReal) := by
  unfold kerLo refLo
  rw [kerE_eq, kerR_eq]

theorem ker_eq_ref_hi (x y : ℝ) : kerHi (x : EReal) (y : EReal) = refHi (x : EReal) (y : EReal) := by
  unfold kerHi refHi
  rw [kerE_eq, kerR_eq]

end Cert.Bands

end
-- ==== Proof.Finite.lean ====
/-
  Finite inputs are real, and on real inputs the two forms of the band array agree.

  The precondition says that every entry of the array of wave vectors has absolute value below +∞. Over the
  extended reals |x| = max x (−x), which is +∞ at both infinities, so an entry satisfying it is neither of them:
  it is a real number. At real arguments the two forms of each band are equal, so the two result arrays are equal
  entry by entry.
-/
import proofs.«156056_j32530082300274_2_alg».proof.Pre_finite_inputs
import proofs.«156056_j32530082300274_2_alg».proof.Proof.Gen.Pre_finite_inputs
import proofs.«156056_j32530082300274_2_alg».proof.Proof.Scalar
import Idealize.ShloMosaic.Lib.ReduceAll
import Idealize.ShloMosaic.Lib.ValueIdx

noncomputable section

namespace Cert.Bands

open Idealize.ShloMosaic Idealize.ShloMosaic.ValueIdx

/-- The word with all exponent bits set and no significand bits denotes +∞. -/
theorem lit_inf : Ideal.ofBits .f32 0x7F800000#32 = ⊤ := by
  simp [Ideal.ofBits, Ideal.ieee]

/-- A one-bit word made from a truth value is 1 exactly when the truth value is true. -/
theorem ofBool_eq_one (b : Bool) : BitVec.ofBool b = 1#1 ↔ b = true := by cases b <;> decide

/-- An extended real with max x (−x) < +∞ is a real: at −∞ the negation, and at +∞ the number itself, is +∞. -/
theorem real_of_abs_lt_top (x : EReal) (hx : max x (-x) < ⊤) : ∃ r : ℝ, x = (r : EReal) := by
  have htop : x ≠ ⊤ := fun e => by rw [e] at hx; simp at hx
  have hbot : x ≠ ⊥ := fun e => by rw [e] at hx; simp at hx
  exact ⟨x.toReal, (EReal.coe_toReal htop hbot).symm⟩

/-- Under the precondition every entry of the array of wave vectors is a real number: the conjunction over all
    entries being 1, each entry's comparison |k i| < +∞ is 1. -/
theorem real_of_pre [hP : Cert.Pre_finite_inputs.Facts] (k : Cert.Bands.SK.Idx → EReal)
    (h : Cert.Pre_finite_inputs.fn (F := Ideal) k = fun _ => 1#1) :
    ∀ i : Cert.Bands.SK.Idx, ∃ r : ℝ, k i = (r : EReal) := by
  intro i
  -- the rank-0 shape of the conjunction's result has one index
  haveI : Subsingleton Cert.Pre_finite_inputs.S_.Idx := ⟨fun a b => funext fun d => d.elim0⟩
  have e := congrFun h ValueIdx.ix0
  dsimp only [Cert.Pre_finite_inputs.fn] at e
  have e2 := Host.reduce_andi_all _ _ _ _ _ e i
  have e3 : BitVec.ofBool (decide (max (k i) (-(k i)) < Ideal.ofBits .f32 0x7F800000#32)) = 1#1 := e2
  rw [ofBool_eq_one, decide_eq_true_eq, lit_inf] at e3
  exact real_of_abs_lt_top (k i) e3

/-- On an array of reals the two forms give the same array: each row's two entries are the two bands at that row's
    (x, y), and there the forms agree. -/
theorem out_ker_eq_ref (k : Cert.Bands.SK.Idx → EReal) (hk : ∀ i, ∃ r : ℝ, k i = (r : EReal)) :
    out kerLo kerHi k = out refLo refHi k := by
  funext i
  unfold out
  obtain ⟨x, hx⟩ := hk (ix2 (i 0) (0 : Fin 2))
  obtain ⟨y, hy⟩ := hk (ix2 (i 0) (1 : Fin 2))
  rw [hx, hy, ker_eq_ref_lo, ker_eq_ref_hi]

end Cert.Bands

end
-- ==== Proof.lean ====
/-
  The two programs compute, for every wave vector (x, y) of an N × 2 array, the two energy bands
  ε(x, y) ∓ √(M + |f(x, y)|²) of a honeycomb lattice with nearest-neighbour hopping f, next-nearest-neighbour term ε and mass
  M. The reference sums cos and sin of the phases k · δ over the three nearest-neighbour vectors δ and cos over the six
  next-nearest ones; the kernel evaluates cos a, cos b, sin b once (a = α·x, b = β·y) and builds the same sums as
  polynomials by the double-angle, triple-angle and product-to-sum identities.

  At the extended reals the two agree on every finite input because the single-precision words of the lattice vectors are
  EXACT multiples of α and β (2α, 2β, 3β and their negatives: a doubled word has the same mantissa, and 3β happens to be
  representable), and the kernel's −2t' is exactly twice the reference's −t'. The phases are then −2b, a ± b and ±2a, ±(a ± 3b)
  as real numbers, and the trigonometric identities close the gap (Scalar.lean). Finiteness of the input is used: it makes
  every entry a real number, where the identities live (Finite.lean).

  The kernel's result as a function of its argument is read off its frame run block by block (KerBlock, KerArray) and
  through the host lines around the region (KerHost); the reference's run is its list of operations read index by index
  (RefRun, RefValue). No rewrite was applied in printing the idealized kernel, so that conjunct is trivial.
-/
import proofs.«156056_j32530082300274_2_alg».proof.Defs
import proofs.«156056_j32530082300274_2_alg».proof.Proof.Gen.Kernel
import proofs.«156056_j32530082300274_2_alg».proof.Proof.Gen.Kernel.Skeleton
import proofs.«156056_j32530082300274_2_alg».proof.Proof.Gen.Kernel.Launch
import proofs.«156056_j32530082300274_2_alg».proof.Proof.Gen.Kernel.Points
import proofs.«156056_j32530082300274_2_alg».proof.Proof.Gen.Kernel.Frame
import proofs.«156056_j32530082300274_2_alg».proof.Proof.Gen.KernelIdeal
import proofs.«156056_j32530082300274_2_alg».proof.Proof.Gen.KernelIdeal.Skeleton
import proofs.«156056_j32530082300274_2_alg».proof.Proof.Gen.KernelIdeal.Launch
import proofs.«156056_j32530082300274_2_alg».proof.Proof.Gen.KernelIdeal.Points
import proofs.«156056_j32530082300274_2_alg».proof.Proof.Gen.KernelIdeal.Frame
import proofs.«156056_j32530082300274_2_alg».proof.Proof.Gen.ReferenceIdeal
import proofs.«156056_j32530082300274_2_alg».proof.Proof.Gen.Pre_finite_inputs
import proofs.«156056_j32530082300274_2_alg».proof.Proof.KerHost
import proofs.«156056_j32530082300274_2_alg».proof.Proof.RefValue
import proofs.«156056_j32530082300274_2_alg».proof.Proof.Finite
import Idealize.ShloMosaic.Adequacy
import Idealize.ShloMosaic.Init

noncomputable section

namespace Cert.Proof

open Idealize.ShloMosaic Idealize.SL.Sem

/-- The word-level kernel runs and keeps its argument: its generated frame. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From memories agreeing on the wave vectors, all finite, both programs end with the same bands: the kernel's polynomial form
    and the reference's sums are one function on real arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Bands.out Cert.Bands.kerLo Cert.Bands.kerHi (m ((c.tc : Thread Cert.KernelIdeal.nD Cert.KernelIdeal.τ).loc Cert.KernelIdeal.main_arg0)),
    Cert.KernelIdeal.HostValue.run m ρ, ?_⟩
  refine (θ_run Cert.ReferenceIdeal.defs _ _).mono (fun _ h c => ⟨(h c).1.trans ?_, (h c).2⟩) (Cert.ReferenceIdeal.RefValue.run m' ρ')
  rw [hagree c]
  exact (Cert.Bands.out_ker_eq_ref _ (Cert.Bands.real_of_pre (hP := Cert.Pre_finite_inputs.Gen.facts) _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
